-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x4096 : Shape := ⟨2, ![32, 4096]⟩
abbrev S4096x128 : Shape := ⟨2, ![4096, 128]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S4096x4096 32) (main_arg2 : FVec F S32x4096 .f32) (main_arg3 : FVec F S32x4096 .f32) (main_arg4 : FVec F S4096x128 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x4096 .f32 := Host.absf main_arg2
  let main_cst_0 : FVec F S_ .f32 := constant S_ .f32 0x7F800000#32
  let main_v5 : FVec F S32x4096 .f32 := broadcastInDim S32x4096 ![] bcast_S_S32x4096 main_cst_0
  let main_v6 : IVec S32x4096 1 := cmpf .olt main_v4 main_v5
  let main_c_1 : IVec S_ 1 := constantI S_ 1 1#1
  let main_v7 : IVec S_ 1 := (fun x v => Host.reduce IntOp.andi x v reducesTo_S32x4096_S_d0_1 h_S_) main_v6 main_c_1
  let main_v8 : IVec S_ 1 := andi main_v3 main_v7
  let main_v9 : FVec F S32x4096 .f32 := Host.absf main_arg3
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096x128 .f32 := Host.absf main_arg4
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg5 main_v13 main_v16
-- ==== Kernel.lean ====
abbrev S4x2048x4096 : Shape := ⟨3, ![4, 2048, 4096]⟩
abbrev S4096x4096 : Shape := ⟨2, ![4096, 4096]⟩
abbrev S32x4096 : Shape := ⟨2, ![32, 4096]⟩
abbrev S4096x128 : Shape := ⟨2, ![4096, 128]⟩
abbrev S4096 : Shape := ⟨1, ![4096]⟩
abbrev S8192x4096 : Shape := ⟨2, ![8192, 4096]⟩
abbrev S8192x128 : Shape := ⟨2, ![8192, 128]⟩
abbrev S128x4096 : Shape := ⟨2, ![128, 4096]⟩
abbrev S1024x1024 : Shape := ⟨2, ![1024, 1024]⟩
abbrev S8x1024 : Shape := ⟨2, ![8, 1024]⟩
abbrev S8x1x1024 : Shape := ⟨3, ![8, 1, 1024]⟩
abbrev S8x128x1024 : Shape := ⟨3, ![8, 128, 1024]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩

abbrev nBuf : Space → Nat
  | .hbm => 16
  | .vmem => 21
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096, .f32⟩
  | .hbm, ⟨3, _⟩ => ⟨S32x4096, .f32⟩
  | .hbm, ⟨4, _⟩ => ⟨S4096x128, .f32⟩
  | .hbm, ⟨5, _⟩ => ⟨S4096, .f32⟩
  | .hbm, ⟨6, _⟩ => ⟨S8192x4096, .f32⟩
  | .hbm, ⟨7, _⟩ => ⟨S8192x4096, .bf16⟩
  | .hbm, ⟨8, _⟩ => ⟨S8192x128, .f32⟩
  | .hbm, ⟨9, _⟩ => ⟨S8192x128, .bf16⟩
  | .hbm, ⟨10, _⟩ => ⟨S4096x4096, .i32⟩
  | .hbm, ⟨11, _⟩ => ⟨S128x4096, .f32⟩
  | .hbm, ⟨12, _⟩ => ⟨S128x4096, .bf16⟩
  | .hbm, ⟨13, _⟩ => ⟨S4096x4096, .bf16⟩
  | .hbm, ⟨14, _⟩ => ⟨S8192x4096, .f32⟩
  | .hbm, ⟨15, _⟩ => ⟨S4x2048x4096, .f32⟩
  | .local _ .vmem, ⟨0, _⟩ => ⟨S1024x1024, .i32⟩
  | .local _ .vmem, ⟨1, _⟩ => ⟨S1024x1024, .i32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S1024x1024, .bf16⟩
  | .local _ .vmem, ⟨13, _⟩ => ⟨S1024x1024, .bf16⟩
  | .local _ .vmem, ⟨14, _⟩ => ⟨S128x1024, .bf16⟩
  | .local _ .vmem, ⟨15, _⟩ => ⟨S128x1024, .bf16⟩
  | .local _ .vmem, ⟨16, _⟩ => ⟨S1024, .f32⟩
  | .local _ .vmem, ⟨17, _⟩ => ⟨S1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, true]

abbrev stage1_3 : Fin 2 → Memref sig .tc .vmem S128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4x2048x4096_S8192x4096 : S4x2048x4096.ShapeCasts S8192x4096
  bitsLt_bf16_f32 : FTy.bits .bf16 < FTy.bits .f32
  slices_S8192x4096_S8192x128_0_3968 : S8192x4096.Slices ![0, 3968] S8192x128
  transposes_S4096x4096_S4096x4096_1_0 : S4096x4096.Transposes [1, 0] S4096x4096
  transposes_S4096x128_S128x4096_1_0 : S4096x128.Transposes [1, 0] S128x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  shapeCasts_S8x128x1024_S1024x1024 : S8x128x1024.ShapeCasts S1024x1024
  packedbf16_S1024x1024_S1024x1024_0_0 : (Rect.unit (s := S1024x1024) ![0, 0] S1024x1024.size inb_S1024x1024_S1024x1024_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .i32 = 32 ∨ (Rect.block (s := S4096x4096) S1024x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S32x4096.size a
  hwx0_1 : ∀ i : grid0.Coords, EltTy.bits .f32 = 32 ∨ (Rect.block (s := S32x4096) S8x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x4096.size a
  hwx0_2 : ∀ i : grid0.Coords, EltTy.bits .f32 = 32 ∨ (Rect.block (s := S32x4096) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x4096.size a
  hwx0_3 : ∀ i : grid0.Coords, EltTy.bits .bf16 = 32 ∨ (Rect.block (s := S4096x4096) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .bf16 = 32 ∨ (Rect.block (s := S8192x128) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1024.size a ≤ S128x4096.size a
  hwx1_3 : ∀ i : grid1.Coords, EltTy.bits .bf16 = 32 ∨ (Rect.block (s := S128x4096) S128x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S4096.size a
  hwx1_4 : ∀ i : grid1.Coords, EltTy.bits .f32 = 32 ∨ (Rect.block (s := S4096) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x4096.size a
  hwx1_5 : ∀ i : grid1.Coords, EltTy.bits .f32 = 32 ∨ (Rect.block (s := S8192x4096) S1024x1024.size (cc1_transform_5 i) (hinb1_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S128x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x4096 : Shape := ⟨2, ![32, 4096]⟩
abbrev S4096x128 : Shape := ⟨2, ![4096, 128]⟩
abbrev S4096 : Shape := ⟨1, ![4096]⟩
abbrev S32x128x4096 : Shape := ⟨3, ![32, 128, 4096]⟩
abbrev S4x2048x128 : Shape := ⟨3, ![4, 2048, 128]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S32x4096, .f32⟩
  | .hbm, ⟨3, _⟩ => ⟨S32x4096, .f32⟩
  | .hbm, ⟨4, _⟩ => ⟨S4096x128, .f32⟩
  | .hbm, ⟨5, _⟩ => ⟨S4096, .f32⟩
  | .hbm, ⟨6, _⟩ => ⟨S32x128x4096, .f32⟩
  | .hbm, ⟨7, _⟩ => ⟨S4096x4096, .f32⟩
  | .hbm, ⟨8, _⟩ => ⟨S4096x4096, .f32⟩
  | .hbm, ⟨9, _⟩ => ⟨S32x128x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4x2048x4096, .f32⟩
  | .hbm, ⟨16, _⟩ => ⟨S4x2048x128, .f32⟩
  | .hbm, ⟨17, _⟩ => ⟨S4x2048x4096, .f32⟩
  | .hbm, ⟨18, _⟩ => ⟨S4x2048x4096, .f32⟩
  | .hbm, ⟨19, _⟩ => ⟨S1x1x4096, .f32⟩
  | .hbm, ⟨20, _⟩ => ⟨S4x2048x4096, .f32⟩
  | .hbm, ⟨21, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S32x4096_S32x128x4096_0_2 : S32x4096.BroadcastsInDim S32x128x4096 (![0, 2] : Fin 2 → Fin S32x128x4096.rank)
  shapeCasts_S32x128x4096_S4096x4096 : S32x128x4096.ShapeCasts S4096x4096
  transposes_S4096x4096_S4096x4096_1_0 : S4096x4096.Transposes [1, 0] S4096x4096
  slices_S4x2048x4096_S4x2048x128_0_0_3968 : S4x2048x4096.Slices ![0, 0, 3968] S4x2048x128
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []
  dot_S4x2048x128_S4096x128_S4x2048x4096_2_1_01_0_n_n_wf : DotDims.WF S4x2048x128 S4096x128 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x128_S4096x128_S4x2048x4096_2_1_01_0_n_n : DotDims S4x2048x128 S4096x128 S4x2048x4096 where
  lhsContracting := [2]
  rhsContracting := [1]
  lhsNonContracting := [0, 1]
  rhsNonContracting := [0]
  lhsBatch := []
  rhsBatch := []
  wf := dot_S4x2048x128_S4096x128_S4x2048x4096_2_1_01_0_n_n_wf

class Facts : Prop extends Facts₀ where

variable [Facts]
-- ==== Proof.WordDequantRegion.lean ====
/-
  The first pallas_call (the one-shot dequantisation) as a pipeline region, at any float instance and at any
  contents `V` of the core's buffers on entry.  Its grid has 4 × 4 points; point (bk, bn) is handed block (bk, bn)
  of the transposed integer weight (1024 × 1024) and block (bk, bn) of the scale and zero tables (8 × 1024: the eight
  groups of the block's 1024 input features), and stores one whole 1024 × 1024 block of the dequantised weight.
  The body reads three buffers whole, computes one value and stores it whole, so what it leaves in the output
  buffer is that value; nothing is kept between points.
-/
import proofs.«144596_j15461882266230_2_alg».proof.Proof.Gen.Kernel.Launch
import proofs.«144596_j15461882266230_2_alg».proof.Proof.Gen.Kernel.Skeleton
import proofs.«144596_j15461882266230_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dq

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point — fetched there or not: unfetched, the
    block index has not moved — for any proof data over `V` whose body leaves the block in place. -/
theorem found_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole 1024 × 1024 buffer as one rectangle, and the whole 8 × 1024 one. -/
abbrev rW : Rect S1024x1024 := Rect.unit (s := S1024x1024) ![0, 0] S1024x1024.size inb_S1024x1024_S1024x1024_0_0
abbrev rG : Rect S8x1024 := Rect.unit (s := S8x1024) ![0, 0] S8x1024.size inb_S8x1024_S8x1024_0_0

/-- What the body leaves in the output buffer, from the three input blocks: its one store. -/
def stored (x0 : Vec F S1024x1024 .i32) (x1 x2 : Vec F S8x1024 .f32) : Vec F S1024x1024 .bf16 :=
  View.canon [⟨rW, k0_pay1 (View.ld x0 rW) (View.ld x1 rG) (View.ld x2 rG)⟩]

theorem stored_cover (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

set_option maxHeartbeats 1000000 in
/-- The body on whole staging buffers: the inputs at `x0 x1 x2`, the output at anything; it ends with the inputs as
    they were and the output at `stored x0 x1 x2`. -/
theorem body_triple (c : Dev nD) (E : Set ℕ) (i : grid0.Coords)
    (arg2 : Memref sig .tc .vmem S1024x1024 .i32) (harg2 : arg2.IsWhole) (arg3 : Memref sig .tc .vmem S8x1024 .f32) (harg3 : arg3.IsWhole)
    (arg4 : Memref sig .tc .vmem S8x1024 .f32) (harg4 : arg4.IsWhole) (arg5 : Memref sig .tc .vmem S1024x1024 .bf16) (harg5 : arg5.IsWhole)
    (x0 : Vec F S1024x1024 .i32) (x1 x2 : Vec F S8x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__dequant_kernel i arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The region's proof data on core `c`: the arrays as found; after the body each input's buffer at its block and the
    output's at `stored` of the three; the region keeps nothing of its own between points. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = stored (blk V c 0 t) (blk V c 1 t) (blk V c 2 t) := by dsimp only [dat]

theorem found_0 (c : Dev nD) (t : Fin cfg0.N) (d) : (dat V c).before 0 t d = blk V c 0 t :=
  found_of_0 V (dat V c) (dat_A V c 0) (after_0 V c) t d
theorem found_1 (c : Dev nD) (t : Fin cfg0.N) (d) : (dat V c).before 1 t d = blk V c 1 t :=
  found_of_1 V (dat V c) (dat_A V c 1) (after_1 V c) t d
theorem found_2 (c : Dev nD) (t : Fin cfg0.N) (d) : (dat V c).before 2 t d = blk V c 2 t :=
  found_of_2 V (dat V c) (dat_A V c 2) (after_2 V c) t d

/-- What the body is called with at point `t`, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem point_sound (c : Dev nD) (t : Fin cfg0.N) :
    pointPre V c t ⊢ wp frame (wpE (defs₀ (F := F)) Variants.none c none) Set.univ (bodyAt0 t) (fun _ => pointPost V c t) := by
  unfold pointPre pointPost bodyAt0
  simp only [found_0, found_1, found_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact point_sound V c t

end Cert.Kernel.Dq

end
-- ==== Proof.WordMatmulShared.lean ====
/-
  The second pallas_call (the matrix product) as a pipeline region: what its three kinds of grid point share.
  The grid is 8 × 4 × 4, point (i, j, k) in row-major order, so that the position t has k = t mod 4.  The kernel keeps
  a 1024 × 1024 accumulator in a scratch buffer of its own ACROSS the four points of a group (i, j, ·): at k = 0 it
  stores outlier product + bias there, at every k it adds block k of the dense product, and at k = 3 it copies the
  accumulator to the output block (i, j), which the pipeline writes back only there; at the other points the output
  buffer is not touched.  Here: the windows' blocks, the two branch conditions in closed form over the grid, where the
  output window is idle, and the region's invariant with the scratch buffer singled out.
-/
import proofs.«144596_j15461882266230_2_alg».proof.Proof.Gen.Kernel.Launch
import proofs.«144596_j15461882266230_2_alg».proof.Proof.Gen.Kernel.Skeleton
import proofs.«144596_j15461882266230_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point — fetched there or not: unfetched, the
    block index has not moved — for any proof data over `V` whose body leaves the block in place. -/
theorem found_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_of_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_of_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The two branch conditions -/

/-- `k = 0`, as the body computes it from the grid coordinates. -/
abbrev isFirst (i : grid1.Coords) : Prop :=
  (Scalar.cmpi .ne (Scalar.extui (Scalar.cmpi .eq (BitVec.ofNat 32 (i 2).val) 0#32)) 0#32) = 1#1
theorem first_iff : ∀ t : Fin cfg1.N, isFirst (grid1.coords t) ↔ t.val % 4 = 0 :=
  (by decide +kernel : ∀ t : Fin grid1.N, isFirst (grid1.coords t) ↔ t.val % 4 = 0)

/-- `k = 3`, likewise. -/
abbrev isLast (i : grid1.Coords) : Prop := k1_cond2 i = 1#1
theorem last_iff : ∀ t : Fin cfg1.N, isLast (grid1.coords t) ↔ t.val % 4 = 3 :=
  (by decide +kernel : ∀ t : Fin grid1.N, isLast (grid1.coords t) ↔ t.val % 4 = 3)

/-! ## Where the output window is idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
/-- Away from `k = 3` the body stores nothing into the output buffer and the pipeline does not write it back. -/
theorem out_idle : ∀ t : Fin cfg1.N, ¬isLast (grid1.coords t) → cfg1.idle 5 (grid1.coords t) = true := by decide +kernel
theorem out_kept : ∀ t : Fin cfg1.N, ¬isLast (grid1.coords t) → (cfg1.win 5).flush t = false := by decide +kernel
/-- At `k = 3` it is stored and written back. -/
theorem out_live : ∀ t : Fin cfg1.N, isLast (grid1.coords t) → cfg1.idle 5 (grid1.coords t) = false := by decide +kernel

/-! ## The buffers the body is called with -/

abbrev ms_0 (t : Fin cfg1.N) : Memref sig .tc .vmem S1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x1024 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x1024 .f32 := win1_5.stage (cfg1.slots t 5)
abbrev hs_5 (t : Fin cfg1.N) : (ms_5 t).IsWhole := hstage1_5 ((cfg1.slots t 5).cast nbuf1_5)
/-- The accumulator: a whole scoped buffer of the kernel's own. -/
abbrev scM : Memref sig .tc .vmem S1024x1024 .f32 := Memref.whole cc1_scratch0
/-- The views through which the output buffer's and the accumulator's contents are stated. -/
abbrev VO : View sig .tc .vmem S1024x1024 .f32 := (Memref.whole cc1_stg5_0 : Memref sig .tc .vmem S1024x1024 .f32).view
abbrev VS : View sig .tc .vmem S1024x1024 .f32 := scM.view

/-! ## The invariant, the accumulator singled out -/

/-- The core's other scoped buffers (the first call's staging buffers), which this region never looks at. -/
abbrev others (c : Dev nD) : sProp 𝕄 :=
  Pipeline.scopedRestBut (Ix := Unit) (Name := ℕ) (U := UR sig nD τ) (Lvl := ℕ) (Val := Elt F) spec1 c [cc1_scratch0]

/-- The class's invariant (every scoped buffer that is no staging buffer at anything, the generator register at some
    state) with the accumulator as a memref owned at some contents. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA
  rw [Pipeline.scopedRest_split_of_list spec1 c [cc1_scratch0] (by decide) (by decide)]
  simp only [scM, owns_whole]; try rfl

end Cert.Kernel.Mm

end
-- ==== Proof.WordMatmulFirst.lean ====
/-
  The matrix-product kernel's body at a point with k = 0 (the first of its group).  It loads the activation block
  and the weight block, forms their product; loads the outlier activations, the outlier weight block and the bias
  block and stores  outlier product + bias  into the accumulator; reads the accumulator back, adds the product and
  stores the sum.  The output buffer is not touched.  The pieces the accumulator ends with are found by running the body.
-/
import proofs.«144596_j15461882266230_2_alg».proof.Proof.WordMatmulShared

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces (last store first) after the body at a point with `k = 0`, with the proof that on whole
    buffers — the five inputs at their contents, the accumulator at anything — the body runs to a continuation holding
    the inputs as they were and the accumulator with those pieces written. -/
noncomputable def runFirst (c : Dev nD) (i : grid1.Coords) (arg3 : Memref sig .tc .vmem S1024x1024 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole)
    (hf : isFirst i) (hl : ¬isLast i)
    (x0 : Vec F S1024x1024 .bf16) (x1 : Vec F S1024x128 .bf16) (x2 : Vec F S1024x1024 .bf16) (x3 : Vec F S128x1024 .bf16) (x4 : Vec F S1024 .f32) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg9.view.loc (c : Thread nD τ) ↦[arg9.view.set]{fullShare} arg9.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Mm

end
-- ==== Proof.WordMatmulMiddle.lean ====
/-
  The matrix-product kernel's body at a point with k = 1 or k = 2 (inside its group).  It loads the activation block
  and the weight block, forms their product, reads the accumulator — which holds what the point before left —, adds
  the product and stores the sum.  The outlier operands, the bias and the output buffer are not touched.
-/
import proofs.«144596_j15461882266230_2_alg».proof.Proof.WordMatmulShared

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces after the body at a point with `k ∈ {1, 2}`, with the proof that on whole buffers — the
    two inputs at their contents, the accumulator at `xs` — the body runs to a continuation holding the inputs as they
    were and the accumulator with those pieces written. -/
noncomputable def runMiddle (c : Dev nD) (i : grid1.Coords) (arg3 : Memref sig .tc .vmem S1024x1024 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole)
    (hf : ¬isFirst i) (hl : ¬isLast i)
    (x0 : Vec F S1024x1024 .bf16) (x2 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x0 ∗ owns (c : Thread nD τ) arg5 fullShare x2 ∗ owns (c : Thread nD τ) arg9 fullShare xs
            ∗ (iprop(owns (c : Thread nD τ) arg3 fullShare x0 ∗ owns (c : Thread nD τ) arg5 fullShare x2
                ∗ (∃ f, arg9.view.loc (c : Thread nD τ) ↦[arg9.view.set]{fullShare} arg9.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f2, %hf2, H2⟩, ⟨%fs, %hfs, HS⟩, Hk⟩
    obtain rfl := harg3.eq_unread hf0; obtain rfl := harg5.eq_unread hf2; obtain rfl := harg9.eq_unread hfs
    sl_exec (disch := first | exact hf | exact hl)
    sl_step
    iapply Hk
    isplitl [H0]
    · iexists _; isplitr; · ipureintro; exact harg3.read_unread _
      iexact H0
    isplitl [H2]
    · iexists _; isplitr; · ipureintro; exact harg5.read_unread _
      iexact H2
    iexists _; iexact HS

end Cert.Kernel.Mm

end
-- ==== Proof.WordMatmulLast.lean ====
/-
  The matrix-product kernel's body at a point with k = 3 (the last of its group).  As inside the group it adds the
  product of its two blocks to the accumulator; then it reads the accumulator back and stores it into the output
  buffer, whole.
-/
import proofs.«144596_j15461882266230_2_alg».proof.Proof.WordMatmulShared

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The output buffer's and the accumulator's pieces after the body at a point with `k = 3`, with the proof that on
    whole buffers — the two inputs at their contents, the output buffer at anything, the accumulator at `xs` — the
    body runs to a continuation holding the inputs as they were and the two buffers with those pieces written. -/
noncomputable def runLast (c : Dev nD) (i : grid1.Coords) (arg3 : Memref sig .tc .vmem S1024x1024 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole)
    (hf : ¬isFirst i) (hl : isLast i)
    (x0 : Vec F S1024x1024 .bf16) (x2 : Vec F S1024x1024 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg5 fullShare x2 ∗ (∃ d, owns (c : Thread nD τ) arg8 fullShare d)
            ∗ owns (c : Thread nD τ) arg9 fullShare xs
            ∗ (iprop(owns (c : Thread nD τ) arg3 fullShare x0 ∗ owns (c : Thread nD τ) arg5 fullShare x2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f2, %hf2, H2⟩, ⟨%d5, %f5, -, H5⟩, ⟨%fs, %hfs, HS⟩, Hk⟩
    obtain rfl := harg3.eq_unread hf0; obtain rfl := harg5.eq_unread hf2; obtain rfl := harg9.eq_unread hfs
    sl_exec (disch := first | exact hf | exact hl)
    sl_step
    iapply Hk
    isplitl [H0]
    · iexists _; isplitr; · ipureintro; exact harg3.read_unread _
      iexact H0
    isplitl [H2]
    · iexists _; isplitr; · ipureintro; exact harg5.read_unread _
      iexact H2
    isplitl [H5]; · iexists _; iexact H5
    iexists _; iexact HS

end Cert.Kernel.Mm

end
-- ==== Proof.WordMatmulRegion.lean ====
/-
  The second pallas_call (the matrix product) as a pipeline region, at any float instance and at any contents `V` of
  the core's buffers on entry: what the accumulator and the output buffer hold after each grid point, by recursion on
  the position — at k = 0 what the first-point body leaves from the point's five input blocks, at k = 1, 2 what the
  middle body leaves from the two product blocks and the accumulator of the point before, at k = 3 the same and the
  output buffer at a copy of it —, the region's invariant (before the first point every scoped buffer at anything;
  afterwards the accumulator at what the point before left), the proof data, and the body obligation at every point.
-/
import proofs.«144596_j15461882266230_2_alg».proof.Proof.WordMatmulFirst
import proofs.«144596_j15461882266230_2_alg».proof.Proof.WordMatmulMiddle
import proofs.«144596_j15461882266230_2_alg».proof.Proof.WordMatmulLast

set_option maxRecDepth 16384

noncomputable section

namespace Cert.Kernel.Mm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three bodies at a point's own buffers -/

/-- The body's run at point `t` with `k = 0`, on the buffers the pipeline passes there. -/
def atFirst (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16) (x4 : Vec F S1024 .f32) :=
  runFirst c (grid1.coords t) (ms_0 t) (hs_0 t) (ms_1 t) (hs_1 t) (ms_2 t) (hs_2 t) (ms_3 t) (hs_3 t) (ms_4 t) (hs_4 t) (ms_5 t) (hs_5 t) scM (Memref.isWhole_whole _) hf hl x0 x1 x2 x3 x4
/-- … with `k ∈ {1, 2}`, -/
def atMiddle (c : Dev nD) (t : Fin cfg1.N) (hf : ¬isFirst (grid1.coords t)) (hl : ¬isLast (grid1.coords t))
    (x0 x2 : Vec F S1024x1024 .bf16) (xs : Vec F S1024x1024 .f32) :=
  runMiddle c (grid1.coords t) (ms_0 t) (hs_0 t) (ms_1 t) (hs_1 t) (ms_2 t) (hs_2 t) (ms_3 t) (hs_3 t) (ms_4 t) (hs_4 t) (ms_5 t) (hs_5 t) scM (Memref.isWhole_whole _) hf hl x0 x2 xs
/-- … with `k = 3`. -/
def atLast (c : Dev nD) (t : Fin cfg1.N) (hf : ¬isFirst (grid1.coords t)) (hl : isLast (grid1.coords t))
    (x0 x2 : Vec F S1024x1024 .bf16) (xs : Vec F S1024x1024 .f32) :=
  runLast c (grid1.coords t) (ms_0 t) (hs_0 t) (ms_1 t) (hs_1 t) (ms_2 t) (hs_2 t) (ms_3 t) (hs_3 t) (ms_4 t) (hs_4 t) (ms_5 t) (hs_5 t) scM (Memref.isWhole_whole _) hf hl x0 x2 xs

/-- Each body's stores into the accumulator are whole-buffer stores, so they cover it; so do the last body's into the
    output buffer. -/
theorem first_cover (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16) (x4 : Vec F S1024 .f32)
    (y : S1024x1024.Idx) : ∃ pc ∈ (atFirst c t hf hl x0 x1 x2 x3 x4).1, y ∈ pc.1.set :=
  View.cover_of_tiledL (atFirst c t hf hl x0 x1 x2 x3 x4).1 S1024x1024.size (by sl_kernel_rfl) y
theorem middle_cover (c : Dev nD) (t : Fin cfg1.N) (hf : ¬isFirst (grid1.coords t)) (hl : ¬isLast (grid1.coords t))
    (x0 x2 : Vec F S1024x1024 .bf16) (xs : Vec F S1024x1024 .f32)
    (y : S1024x1024.Idx) : ∃ pc ∈ (atMiddle c t hf hl x0 x2 xs).1, y ∈ pc.1.set :=
  View.cover_of_tiledL (atMiddle c t hf hl x0 x2 xs).1 S1024x1024.size (by sl_kernel_rfl) y
theorem last_cover (c : Dev nD) (t : Fin cfg1.N) (hf : ¬isFirst (grid1.coords t)) (hl : isLast (grid1.coords t))
    (x0 x2 : Vec F S1024x1024 .bf16) (xs : Vec F S1024x1024 .f32)
    (y : S1024x1024.Idx) : ∃ pc ∈ (atLast c t hf hl x0 x2 xs).2.1, y ∈ pc.1.set :=
  View.cover_of_tiledL (atLast c t hf hl x0 x2 xs).2.1 S1024x1024.size (by sl_kernel_rfl) y
theorem last_out_cover (c : Dev nD) (t : Fin cfg1.N) (hf : ¬isFirst (grid1.coords t)) (hl : isLast (grid1.coords t))
    (x0 x2 : Vec F S1024x1024 .bf16) (xs : Vec F S1024x1024 .f32)
    (y : S1024x1024.Idx) : ∃ pc ∈ (atLast c t hf hl x0 x2 xs).1, y ∈ pc.1.set :=
  View.cover_of_tiledL (atLast c t hf hl x0 x2 xs).1 S1024x1024.size (by sl_kernel_rfl) y

/-- What each body leaves in the accumulator: its pieces read back. -/
def accFirst (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16) (x4 : Vec F S1024 .f32) :
    Vec F S1024x1024 .f32 :=
  VS.read (Elt F) (VS.writes (Elt F) VS.junk (atFirst c t hf hl x0 x1 x2 x3 x4).1)
def accMiddle (c : Dev nD) (t : Fin cfg1.N) (hf : ¬isFirst (grid1.coords t)) (hl : ¬isLast (grid1.coords t))
    (x0 x2 : Vec F S1024x1024 .bf16) (xs : Vec F S1024x1024 .f32) : Vec F S1024x1024 .f32 :=
  VS.read (Elt F) (VS.writes (Elt F) VS.junk (atMiddle c t hf hl x0 x2 xs).1)
def accLast (c : Dev nD) (t : Fin cfg1.N) (hf : ¬isFirst (grid1.coords t)) (hl : isLast (grid1.coords t))
    (x0 x2 : Vec F S1024x1024 .bf16) (xs : Vec F S1024x1024 .f32) : Vec F S1024x1024 .f32 :=
  VS.read (Elt F) (VS.writes (Elt F) VS.junk (atLast c t hf hl x0 x2 xs).2.1)
/-- What the last body leaves in the output buffer. -/
def outLast (c : Dev nD) (t : Fin cfg1.N) (hf : ¬isFirst (grid1.coords t)) (hl : isLast (grid1.coords t))
    (x0 x2 : Vec F S1024x1024 .bf16) (xs : Vec F S1024x1024 .f32) : Vec F S1024x1024 .f32 :=
  VO.read (Elt F) (VO.writes (Elt F) VO.junk (atLast c t hf hl x0 x2 xs).1)
/-- A placeholder for the output buffer at the points that do not store it: nothing reads it (the window is idle
    there and not written back). -/
def noOut : Vec F S1024x1024 .f32 := VO.read (Elt F) VO.junk

/-! ## The accumulation over the grid -/

/-- What the output buffer and the accumulator hold after the body at position `n` (a pair, in that order). -/
def outs (c : Dev nD) : (n : ℕ) → n < cfg1.N → Vec F S1024x1024 .f32 × Vec F S1024x1024 .f32
  | 0, hn => (noOut, accFirst c ⟨0, hn⟩ ((first_iff ⟨0, hn⟩).mpr (Nat.zero_mod _)) (fun h => (fun h => by (try dsimp only at h); omega) ((last_iff ⟨0, hn⟩).mp h))
      (blk V c 0 ⟨0, hn⟩) (blk V c 1 ⟨0, hn⟩) (blk V c 2 ⟨0, hn⟩) (blk V c 3 ⟨0, hn⟩) (blk V c 4 ⟨0, hn⟩))
  | n + 1, hn =>
    if h0 : (n + 1) % 4 = 0 then
      (noOut, accFirst c ⟨n + 1, hn⟩ ((first_iff ⟨n + 1, hn⟩).mpr h0) (fun h => (fun h => by (try dsimp only at h); omega) ((last_iff ⟨n + 1, hn⟩).mp h))
        (blk V c 0 ⟨n + 1, hn⟩) (blk V c 1 ⟨n + 1, hn⟩) (blk V c 2 ⟨n + 1, hn⟩) (blk V c 3 ⟨n + 1, hn⟩) (blk V c 4 ⟨n + 1, hn⟩))
    else if h3 : (n + 1) % 4 = 3 then
      (outLast c ⟨n + 1, hn⟩ (fun h => h0 ((first_iff ⟨n + 1, hn⟩).mp h)) ((last_iff ⟨n + 1, hn⟩).mpr h3)
          (blk V c 0 ⟨n + 1, hn⟩) (blk V c 2 ⟨n + 1, hn⟩) (outs c n (Nat.lt_of_succ_lt hn)).2,
        accLast c ⟨n + 1, hn⟩ (fun h => h0 ((first_iff ⟨n + 1, hn⟩).mp h)) ((last_iff ⟨n + 1, hn⟩).mpr h3)
          (blk V c 0 ⟨n + 1, hn⟩) (blk V c 2 ⟨n + 1, hn⟩) (outs c n (Nat.lt_of_succ_lt hn)).2)
    else
      (noOut, accMiddle c ⟨n + 1, hn⟩ (fun h => h0 ((first_iff ⟨n + 1, hn⟩).mp h)) (fun h => h3 ((last_iff ⟨n + 1, hn⟩).mp h))
        (blk V c 0 ⟨n + 1, hn⟩) (blk V c 2 ⟨n + 1, hn⟩) (outs c n (Nat.lt_of_succ_lt hn)).2)

/-- The accumulator the point before `t` left. -/
abbrev prevAcc (c : Dev nD) (t : Fin cfg1.N) : Vec F S1024x1024 .f32 :=
  (outs V c (t.val - 1) (Nat.lt_of_le_of_lt (Nat.sub_le _ _) t.isLt)).2

theorem outs_first (c : Dev nD) (t : Fin cfg1.N) (h0 : t.val % 4 = 0) :
    outs V c t.val t.isLt = (noOut, accFirst c t ((first_iff t).mpr h0) (fun h => (fun h => by omega) ((last_iff t).mp h))
      (blk V c 0 t) (blk V c 1 t) (blk V c 2 t) (blk V c 3 t) (blk V c 4 t)) := by
  obtain ⟨n, hn⟩ := t
  cases n with
  | zero => exact rfl
  | succ n => exact (dif_pos h0).trans rfl

theorem outs_middle (c : Dev nD) (t : Fin cfg1.N) (h0 : ¬t.val % 4 = 0) (h3 : ¬t.val % 4 = 3) :
    outs V c t.val t.isLt = (noOut, accMiddle c t (fun h => h0 ((first_iff t).mp h)) (fun h => h3 ((last_iff t).mp h))
      (blk V c 0 t) (blk V c 2 t) (prevAcc V c t)) := by
  obtain ⟨n, hn⟩ := t
  cases n with
  | zero => exact (by exfalso; (try dsimp only at h0); exact absurd (Nat.zero_mod _) h0)
  | succ n => exact (dif_neg h0).trans ((dif_neg h3).trans rfl)

theorem outs_last (c : Dev nD) (t : Fin cfg1.N) (h0 : ¬t.val % 4 = 0) (h3 : t.val % 4 = 3) :
    outs V c t.val t.isLt = (outLast c t (fun h => h0 ((first_iff t).mp h)) ((last_iff t).mpr h3) (blk V c 0 t) (blk V c 2 t) (prevAcc V c t),
      accLast c t (fun h => h0 ((first_iff t).mp h)) ((last_iff t).mpr h3) (blk V c 0 t) (blk V c 2 t) (prevAcc V c t)) := by
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position `n`: at the start every scoped buffer at anything; afterwards the accumulator at what the point
    before left, the other scoped buffers at anything, the generator register at some state. -/
def Inv (c : Dev nD) : (n : ℕ) → n ≤ cfg1.N → sProp 𝕄
  | 0, _ => Pipeline.ΦA spec1 c
  | n + 1, hn => iprop(iprop(owns (c : Thread nD τ) scM fullShare ((outs V c n hn).2) ∗ others c) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(owns (c : Thread nD τ) scM fullShare ((outs V c n hn).2) ∗ others c) ∗ (∃ r, prngReg c r)) := rfl
theorem Inv_pos (c : Dev nD) (n : ℕ) (h : n ≤ cfg1.N) (hz : n ≠ 0) :
    Inv V c n h = iprop(iprop(owns (c : Thread nD τ) scM fullShare ((outs V c (n - 1) (by omega)).2) ∗ others c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (outs V c t.val t.isLt).1
  Φ t := Inv V c t.val (Nat.le_of_lt_succ t.isLt)
  q _ := fullShare
  owed _ := 0

theorem dat_A (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = (outs V c t.val t.isLt).1 := by dsimp only [dat]

theorem found_0 (c : Dev nD) (t : Fin cfg1.N) (d) : (dat V c).before 0 t d = blk V c 0 t :=
  found_of_0 V (dat V c) (dat_A V c 0) (after_0 V c) t d
theorem found_1 (c : Dev nD) (t : Fin cfg1.N) (d) : (dat V c).before 1 t d = blk V c 1 t :=
  found_of_1 V (dat V c) (dat_A V c 1) (after_1 V c) t d
theorem found_2 (c : Dev nD) (t : Fin cfg1.N) (d) : (dat V c).before 2 t d = blk V c 2 t :=
  found_of_2 V (dat V c) (dat_A V c 2) (after_2 V c) t d
theorem found_3 (c : Dev nD) (t : Fin cfg1.N) (d) : (dat V c).before 3 t d = blk V c 3 t :=
  found_of_3 V (dat V c) (dat_A V c 3) (after_3 V c) t d
theorem found_4 (c : Dev nD) (t : Fin cfg1.N) (d) : (dat V c).before 4 t d = blk V c 4 t :=
  found_of_4 V (dat V c) (dat_A V c 4) (after_4 V c) t d

/-! ## The body obligation -/

def pointPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def pointPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_0 (c : Dev nD) (t : Fin cfg1.N) : (dat V c).leavesExact 0 t = owns (c : Thread nD τ) (ms_0 t) fullShare (blk V c 0 t) := by
  rw [show (dat V c).leavesExact 0 t = owns (c : Thread nD τ) (ms_0 t) fullShare ((dat V c).after 0 t) from by
    unfold Dat.leavesExact; rw [live_0 t], after_0]
theorem leaves_1 (c : Dev nD) (t : Fin cfg1.N) : (dat V c).leavesExact 1 t = owns (c : Thread nD τ) (ms_1 t) fullShare (blk V c 1 t) := by
  rw [show (dat V c).leavesExact 1 t = owns (c : Thread nD τ) (ms_1 t) fullShare ((dat V c).after 1 t) from by
    unfold Dat.leavesExact; rw [live_1 t], after_1]
theorem leaves_2 (c : Dev nD) (t : Fin cfg1.N) : (dat V c).leavesExact 2 t = owns (c : Thread nD τ) (ms_2 t) fullShare (blk V c 2 t) := by
  rw [show (dat V c).leavesExact 2 t = owns (c : Thread nD τ) (ms_2 t) fullShare ((dat V c).after 2 t) from by
    unfold Dat.leavesExact; rw [live_2 t], after_2]
theorem leaves_3 (c : Dev nD) (t : Fin cfg1.N) : (dat V c).leavesExact 3 t = owns (c : Thread nD τ) (ms_3 t) fullShare (blk V c 3 t) := by
  rw [show (dat V c).leavesExact 3 t = owns (c : Thread nD τ) (ms_3 t) fullShare ((dat V c).after 3 t) from by
    unfold Dat.leavesExact; rw [live_3 t], after_3]
theorem leaves_4 (c : Dev nD) (t : Fin cfg1.N) : (dat V c).leavesExact 4 t = owns (c : Thread nD τ) (ms_4 t) fullShare (blk V c 4 t) := by
  rw [show (dat V c).leavesExact 4 t = owns (c : Thread nD τ) (ms_4 t) fullShare ((dat V c).after 4 t) from by
    unfold Dat.leavesExact; rw [live_4 t], after_4]

set_option maxHeartbeats 4800000 in
/-- The body at any point: the inputs' buffers hold their blocks; the closed forms say which of the three bodies the
    point runs; the invariant hands it the accumulator at what the point before left (at anything before the first
    point) and takes it back at this point's contents; the output buffer is handed back untouched except at k = 3. -/
theorem point_sound (c : Dev nD) (t : Fin cfg1.N) :
    pointPre V c t ⊢ wp frame (wpE (defs₀ (F := F)) Variants.none c none) Set.univ (bodyAt1 t) (fun _ => pointPost V c t) := by
  unfold pointPre pointPost bodyAt1
  simp only [found_0, found_1, found_2, found_3, found_4, leaves_0, leaves_1, leaves_2, leaves_3, leaves_4]
  rw [show (dat V c).owesAt () t.succ = (dat V c).owesAt () t.castSucc from rfl]
  rw [show (dat V c).Φ t.succ = Inv V c (t.val + 1) t.isLt from rfl, Inv_succ]
  have hN : t.val < 128 := lt_of_lt_of_eq t.isLt (show cfg1.N = 128 from N_1)
  by_cases h0 : t.val % 4 = 0
  · have h3 : ¬t.val % 4 = 3 := by omega
    rw [Dat.leavesExact_idle (dat V c) 5 t (out_idle t (fun h => h3 ((last_iff t).mp h))) (out_kept t (fun h => h3 ((last_iff t).mp h)))]
    rw [outs_first V c t h0]
    unfold accFirst; (try dsimp only)
    by_cases hz : t.val = 0
    · rw [Inv_castSucc V c t, Inv_zero V c _ _ hz, PhiA_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atFirst c t ((first_iff t).mpr h0) (fun h => (fun h => by omega) ((last_iff t).mp h)) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hr Hg]
      · isplitl [HS Hr]
        · isplitl [HS]
          · unfold owns; iexists _; isplitr
            swap; · iexact HS
            ipureintro; exact View.read_writes_of_cover _ _ _ _ _ (first_cover c t _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Inv_castSucc V c t, Inv_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atFirst c t ((first_iff t).mpr h0) (fun h => (fun h => by omega) ((last_iff t).mp h)) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hr Hg]
      · isplitl [HS Hr]
        · isplitl [HS]
          · unfold owns; iexists _; isplitr
            swap; · iexact HS
            ipureintro; exact View.read_writes_of_cover _ _ _ _ _ (first_cover c t _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h3 : t.val % 4 = 3
    · rw [show (dat V c).leavesExact 5 t = owns (c : Thread nD τ) (ms_5 t) fullShare ((dat V c).after 5 t) from by
        unfold Dat.leavesExact; rw [out_live t ((last_iff t).mpr h3)], after_5]
      rw [outs_last V c t h0 h3]
      unfold outLast accLast; (try dsimp only)
      rw [Inv_castSucc V c t, Inv_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atLast c t (fun h => h0 ((first_iff t).mp h)) ((last_iff t).mpr h3) (blk V c 0 t) (blk V c 2 t) (prevAcc V c t)).2.2 Set.univ _)
      isplitl [H0]; · iexact H0
      isplitl [H2]; · iexact H2
      isplitl [H5]; · iexists _; iexact H5
      isplitl [HS]; · iexact HS
      iintro ⟨H0, H2, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (last_cover c t _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (last_out_cover c t _ _ _ _ _)
    · rw [Dat.leavesExact_idle (dat V c) 5 t (out_idle t (fun h => h3 ((last_iff t).mp h))) (out_kept t (fun h => h3 ((last_iff t).mp h)))]
      rw [outs_middle V c t h0 h3]
      unfold accMiddle; (try dsimp only)
      rw [Inv_castSucc V c t, Inv_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atMiddle c t (fun h => h0 ((first_iff t).mp h)) (fun h => h3 ((last_iff t).mp h)) (blk V c 0 t) (blk V c 2 t) (prevAcc V c t)).2 Set.univ _)
      isplitl [H0]; · iexact H0
      isplitl [H2]; · iexact H2
      isplitl [HS]; · iexact HS
      iintro ⟨H0, H2, ⟨%es, HS⟩⟩
      isplitl [HS Hr Hg]
      · isplitl [HS Hr]
        · isplitl [HS]
          · unfold owns; iexists _; isplitr
            swap; · iexact HS
            ipureintro; exact View.read_writes_of_cover _ _ _ _ _ (middle_cover c t _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact point_sound V c t

/-- What the region is entered with is the invariant before the first point. -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- After the last point the invariant gives that back: what the accumulator holds is forgotten. -/
theorem inv_out (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl,
    Inv_pos V c _ _ (by rw [Fin.val_last]; have : cfg1.N = 128 := N_1; omega), PhiA_eq]
  iintro ⟨⟨HS, Hr⟩, Hg⟩
  isplitl [HS Hr]
  · isplitl [HS]
    · iexists _; iexact HS
    iexact Hr
  iexact Hg

end Cert.Kernel.Mm

end
-- ==== Proof.WordWholeRun.lean ====
/-
  The whole program as a run: its host operations before the kernels (reshape, casts, slice, transposes), the
  dequantisation region, the matrix-product region, and the closing reshape, composed in order.  Between two items
  every unscoped buffer of the core is held at named contents: the launch memory, then what the first host stretch
  computes from it, then the same with the first region's arrays at what its write-backs leave, then likewise for the
  second region, then what the closing reshape computes.  The conclusion names the final contents of EVERY unscoped
  buffer; the frame claim (arguments unchanged) and the value of the result are read off it.
-/
import proofs.«144596_j15461882266230_2_alg».proof.Proof.WordDequantRegion
import proofs.«144596_j15461882266230_2_alg».proof.Proof.WordMatmulRegion
import proofs.«144596_j15461882266230_2_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the host operations before the kernels. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the dequantisation region: its arrays at what its write-backs leave, every other buffer as entered. -/
def W2 (c : Dev nD) : Valuation τ sig (Elt F) :=
  Pipeline.withArrays spec0 c (W1 m c) fun w => (Dq.dat (V1 m) c).arrAt w cfg0.N
theorem W2_arr (c : Dev nD) (w : Fin cfg0.W) :
    W2 m c (Proc.devRef .tc (Pipeline.arrRef spec0 w)) = (Dq.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0 (c : Dev nD) (w : Fin cfg0.W) : (Dq.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the matrix-product region, likewise. -/
def W3 (c : Dev nD) : Valuation τ sig (Elt F) :=
  Pipeline.withArrays spec1 c (W2 m c) fun w => (Mm.dat (V2 m) c).arrAt w cfg1.N
theorem W3_arr (c : Dev nD) (w : Fin cfg1.W) :
    W3 m c (Proc.devRef .tc (Pipeline.arrRef spec1 w)) = (Mm.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1 (c : Dev nD) (w : Fin cfg1.W) : (Mm.dat (V2 m) c).arrAt w cfg1.N = V3 m c (Pipeline.arrRef spec1 w) :=
  (W3_arr m c w).symm
theorem rest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ## The arguments end as launched -/

theorem W1_keep (c : Dev nD) (r : Ref sig .tc) (h : r ∉ hostOps0_W) : W1 m c (Proc.devRef .tc r) = m ((c : Thread nD τ).loc r) :=
  StableHlo.after_of_writes_sub hostOps0 _ hostOps0_writes h
theorem W4_keep (c : Dev nD) (r : Ref sig .tc) (h : r ∉ hostOps2_W) : W4 m c (Proc.devRef .tc r) = W3 m c (Proc.devRef .tc r) :=
  StableHlo.after_of_writes_sub hostOps2 _ hostOps2_writes h

theorem end_arg0 (c : Dev nD) : W4 m c (Proc.devRef .tc main_arg0) = m ((c : Thread nD τ).loc main_arg0) :=
  (W4_keep m c main_arg0 (by decide)).trans <| (W3_of_ne m c main_arg0 (by decide)).trans <|
    (W2_of_ne m c main_arg0 (by decide)).trans <| W1_keep m c main_arg0 (by decide)
theorem end_arg1 (c : Dev nD) : W4 m c (Proc.devRef .tc main_arg1) = m ((c : Thread nD τ).loc main_arg1) :=
  (W4_keep m c main_arg1 (by decide)).trans <| (W3_of_ne m c main_arg1 (by decide)).trans <|
    (W2_of_ne m c main_arg1 (by decide)).trans <| W1_keep m c main_arg1 (by decide)
theorem end_arg2 (c : Dev nD) : W4 m c (Proc.devRef .tc main_arg2) = m ((c : Thread nD τ).loc main_arg2) :=
  (W4_keep m c main_arg2 (by decide)).trans <| (W3_of_ne m c main_arg2 (by decide)).trans <|
    ((W2_arr m c 1).trans (((Dq.dat (V1 m) c).arrAt_in 1 rfl _).trans (Dq.dat_A (V1 m) c 1))).trans <| W1_keep m c main_arg2 (by decide)
theorem end_arg3 (c : Dev nD) : W4 m c (Proc.devRef .tc main_arg3) = m ((c : Thread nD τ).loc main_arg3) :=
  (W4_keep m c main_arg3 (by decide)).trans <| (W3_of_ne m c main_arg3 (by decide)).trans <|
    ((W2_arr m c 2).trans (((Dq.dat (V1 m) c).arrAt_in 2 rfl _).trans (Dq.dat_A (V1 m) c 2))).trans <| W1_keep m c main_arg3 (by decide)
theorem end_arg4 (c : Dev nD) : W4 m c (Proc.devRef .tc main_arg4) = m ((c : Thread nD τ).loc main_arg4) :=
  (W4_keep m c main_arg4 (by decide)).trans <| (W3_of_ne m c main_arg4 (by decide)).trans <|
    (W2_of_ne m c main_arg4 (by decide)).trans <| W1_keep m c main_arg4 (by decide)
theorem end_arg5 (c : Dev nD) : W4 m c (Proc.devRef .tc main_arg5) = m ((c : Thread nD τ).loc main_arg5) :=
  (W4_keep m c main_arg5 (by decide)).trans <|
    ((W3_arr m c 4).trans (((Mm.dat (V2 m) c).arrAt_in 4 rfl _).trans (Mm.dat_A (V2 m) c 4))).trans <|
    (W2_of_ne m c main_arg5 (by decide)).trans <| W1_keep m c main_arg5 (by decide)

/-! ## The proof data of both regions, and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Dq.dat (V1 m) c
  | ⟨1, _⟩ => fun c => Mm.dat (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W4 m c)

/-! ## The two regions as segments -/

set_option backward.isDefEq.respectTransparency.types false in
/-- The dequantisation region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dq.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W2`, left at `W3`; its invariant starts as the
    class's and ends giving it back (the accumulator's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mm.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from Mm.inv_in (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from Mm.inv_out (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => sep_mono .rfl (show R c ⊢ (iprop(∃ W, owes (c : Thread nD τ) (0 : CellTallies nD τ sig Unit) W) : sProp 𝕄) from by
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      unfold Tₙ StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c),
     (h c _ (mem_uc main_arg4 (by decide))).trans (end_arg4 m c),
     (h c _ (mem_uc main_arg5 (by decide))).trans (end_arg5 m c)⟩) (run_all m ρ)

end Cert.Kernel.Whole

end
-- ==== Proof.DequantRegion.lean ====
/-
  The first pallas_call (the one-shot dequantisation) as a pipeline region, at any float instance and at any
  contents `V` of the core's buffers on entry.  Its grid has 4 × 4 points; point (bk, bn) is handed block (bk, bn)
  of the transposed integer weight (1024 × 1024) and block (bk, bn) of the scale and zero tables (8 × 1024: the eight
  groups of the block's 1024 input features), and stores one whole 1024 × 1024 block of the dequantised weight.
  The body reads three buffers whole, computes one value and stores it whole, so what it leaves in the output
  buffer is that value; nothing is kept between points.
-/
import proofs.«144596_j15461882266230_2_alg».proof.Proof.Gen.KernelIdeal.Launch
import proofs.«144596_j15461882266230_2_alg».proof.Proof.Gen.KernelIdeal.Skeleton
import proofs.«144596_j15461882266230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dq

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point — fetched there or not: unfetched, the
    block index has not moved — for any proof data over `V` whose body leaves the block in place. -/
theorem found_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- The whole 1024 × 1024 buffer as one rectangle, and the whole 8 × 1024 one. -/
abbrev rW : Rect S1024x1024 := Rect.unit (s := S1024x1024) ![0, 0] S1024x1024.size inb_S1024x1024_S1024x1024_0_0
abbrev rG : Rect S8x1024 := Rect.unit (s := S8x1024) ![0, 0] S8x1024.size inb_S8x1024_S8x1024_0_0

/-- What the body leaves in the output buffer, from the three input blocks: its one store. -/
def stored (x0 : Vec F S1024x1024 .i32) (x1 x2 : Vec F S8x1024 .f32) : Vec F S1024x1024 .bf16 :=
  View.canon [⟨rW, k0_pay1 (View.ld x0 rW) (View.ld x1 rG) (View.ld x2 rG)⟩]

theorem stored_cover (p0 : Vec F S1024x1024 .bf16) (y : S1024x1024.Idx) :
    ∃ pc ∈ ([⟨rW, p0⟩] : List (View.Piece (Elt F) S1024x1024 .bf16)), y ∈ pc.1.set :=
  View.cover_of_tiled [⟨rW, p0⟩] S1024x1024.size (by rfl) y

set_option maxHeartbeats 1000000 in
/-- The body on whole staging buffers: the inputs at `x0 x1 x2`, the output at anything; it ends with the inputs as
    they were and the output at `stored x0 x1 x2`. -/
theorem body_triple (c : Dev nD) (E : Set ℕ) (i : grid0.Coords)
    (arg2 : Memref sig .tc .vmem S1024x1024 .i32) (harg2 : arg2.IsWhole) (arg3 : Memref sig .tc .vmem S8x1024 .f32) (harg3 : arg3.IsWhole)
    (arg4 : Memref sig .tc .vmem S8x1024 .f32) (harg4 : arg4.IsWhole) (arg5 : Memref sig .tc .vmem S1024x1024 .bf16) (harg5 : arg5.IsWhole)
    (x0 : Vec F S1024x1024 .i32) (x1 x2 : Vec F S8x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__dequant_kernel i arg2 harg2 arg3 harg3 arg4 harg4 arg5 harg5) K := by
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_cover _)

/-- The region's proof data on core `c`: the arrays as found; after the body each input's buffer at its block and the
    output's at `stored` of the three; the region keeps nothing of its own between points. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (blk V c 0 t) (blk V c 1 t) (blk V c 2 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) :
    (dat V c).after 3 t = stored (blk V c 0 t) (blk V c 1 t) (blk V c 2 t) := by dsimp only [dat]

theorem found_0 (c : Dev nD) (t : Fin cfg0.N) (d) : (dat V c).before 0 t d = blk V c 0 t :=
  found_of_0 V (dat V c) (dat_A V c 0) (after_0 V c) t d
theorem found_1 (c : Dev nD) (t : Fin cfg0.N) (d) : (dat V c).before 1 t d = blk V c 1 t :=
  found_of_1 V (dat V c) (dat_A V c 1) (after_1 V c) t d
theorem found_2 (c : Dev nD) (t : Fin cfg0.N) (d) : (dat V c).before 2 t d = blk V c 2 t :=
  found_of_2 V (dat V c) (dat_A V c 2) (after_2 V c) t d

/-- What the body is called with at point `t`, -/
def pointPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def pointPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem point_sound (c : Dev nD) (t : Fin cfg0.N) :
    pointPre V c t ⊢ wp frame (wpE (defs₀ (F := F)) Variants.none c none) Set.univ (bodyAt0 t) (fun _ => pointPost V c t) := by
  unfold pointPre pointPost bodyAt0
  simp only [found_0, found_1, found_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (body_triple c Set.univ _ _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact point_sound V c t

end Cert.KernelIdeal.Dq

end
-- ==== Proof.MatmulShared.lean ====
/-
  The second pallas_call (the matrix product) as a pipeline region: what its three kinds of grid point share.
  The grid is 8 × 4 × 4, point (i, j, k) in row-major order, so that the position t has k = t mod 4.  The kernel keeps
  a 1024 × 1024 accumulator in a scratch buffer of its own ACROSS the four points of a group (i, j, ·): at k = 0 it
  stores outlier product + bias there, at every k it adds block k of the dense product, and at k = 3 it copies the
  accumulator to the output block (i, j), which the pipeline writes back only there; at the other points the output
  buffer is not touched.  Here: the windows' blocks, the two branch conditions in closed form over the grid, where the
  output window is idle, and the region's invariant with the scratch buffer singled out.
-/
import proofs.«144596_j15461882266230_2_alg».proof.Proof.Gen.KernelIdeal.Launch
import proofs.«144596_j15461882266230_2_alg».proof.Proof.Gen.KernelIdeal.Skeleton
import proofs.«144596_j15461882266230_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point — fetched there or not: unfetched, the
    block index has not moved — for any proof data over `V` whose body leaves the block in place. -/
theorem found_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found_of_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)
theorem found_of_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)
theorem found_of_4 {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-! ## The two branch conditions -/

/-- `k = 0`, as the body computes it from the grid coordinates. -/
abbrev isFirst (i : grid1.Coords) : Prop :=
  (Scalar.cmpi .ne (Scalar.extui (Scalar.cmpi .eq (BitVec.ofNat 32 (i 2).val) 0#32)) 0#32) = 1#1
theorem first_iff : ∀ t : Fin cfg1.N, isFirst (grid1.coords t) ↔ t.val % 4 = 0 :=
  (by decide +kernel : ∀ t : Fin grid1.N, isFirst (grid1.coords t) ↔ t.val % 4 = 0)

/-- `k = 3`, likewise. -/
abbrev isLast (i : grid1.Coords) : Prop := k1_cond2 i = 1#1
theorem last_iff : ∀ t : Fin cfg1.N, isLast (grid1.coords t) ↔ t.val % 4 = 3 :=
  (by decide +kernel : ∀ t : Fin grid1.N, isLast (grid1.coords t) ↔ t.val % 4 = 3)

/-! ## Where the output window is idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
theorem live_3 : ∀ t : Fin cfg1.N, cfg1.idle 3 (grid1.coords t) = false := by decide +kernel
theorem live_4 : ∀ t : Fin cfg1.N, cfg1.idle 4 (grid1.coords t) = false := by decide +kernel
/-- Away from `k = 3` the body stores nothing into the output buffer and the pipeline does not write it back. -/
theorem out_idle : ∀ t : Fin cfg1.N, ¬isLast (grid1.coords t) → cfg1.idle 5 (grid1.coords t) = true := by decide +kernel
theorem out_kept : ∀ t : Fin cfg1.N, ¬isLast (grid1.coords t) → (cfg1.win 5).flush t = false := by decide +kernel
/-- At `k = 3` it is stored and written back. -/
theorem out_live : ∀ t : Fin cfg1.N, isLast (grid1.coords t) → cfg1.idle 5 (grid1.coords t) = false := by decide +kernel

/-! ## The buffers the body is called with -/

abbrev ms_0 (t : Fin cfg1.N) : Memref sig .tc .vmem S1024x1024 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1024x128 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1024x1024 .bf16 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x1024 .bf16 := win1_3.stage (cfg1.slots t 3)
abbrev hs_3 (t : Fin cfg1.N) : (ms_3 t).IsWhole := hstage1_3 ((cfg1.slots t 3).cast nbuf1_3)
abbrev ms_4 (t : Fin cfg1.N) : Memref sig .tc .vmem S1024 .f32 := win1_4.stage (cfg1.slots t 4)
abbrev hs_4 (t : Fin cfg1.N) : (ms_4 t).IsWhole := hstage1_4 ((cfg1.slots t 4).cast nbuf1_4)
abbrev ms_5 (t : Fin cfg1.N) : Memref sig .tc .vmem S1024x1024 .f32 := win1_5.stage (cfg1.slots t 5)
abbrev hs_5 (t : Fin cfg1.N) : (ms_5 t).IsWhole := hstage1_5 ((cfg1.slots t 5).cast nbuf1_5)
/-- The accumulator: a whole scoped buffer of the kernel's own. -/
abbrev scM : Memref sig .tc .vmem S1024x1024 .f32 := Memref.whole cc1_scratch0
/-- The views through which the output buffer's and the accumulator's contents are stated. -/
abbrev VO : View sig .tc .vmem S1024x1024 .f32 := (Memref.whole cc1_stg5_0 : Memref sig .tc .vmem S1024x1024 .f32).view
abbrev VS : View sig .tc .vmem S1024x1024 .f32 := scM.view

/-! ## The invariant, the accumulator singled out -/

/-- The core's other scoped buffers (the first call's staging buffers), which this region never looks at. -/
abbrev others (c : Dev nD) : sProp 𝕄 :=
  Pipeline.scopedRestBut (Ix := Unit) (Name := ℕ) (U := UR sig nD τ) (Lvl := ℕ) (Val := Elt F) spec1 c [cc1_scratch0]

/-- The class's invariant (every scoped buffer that is no staging buffer at anything, the generator register at some
    state) with the accumulator as a memref owned at some contents. -/
theorem PhiA_eq (c : Dev nD) :
    (Pipeline.ΦA spec1 c : sProp 𝕄)
      = iprop(iprop((∃ d, owns (c : Thread nD τ) scM fullShare d) ∗ others c) ∗ (∃ r, prngReg c r)) := by
  unfold Pipeline.ΦA
  rw [Pipeline.scopedRest_split_of_list spec1 c [cc1_scratch0] (by decide) (by decide)]
  simp only [scM, owns_whole]; try rfl

end Cert.KernelIdeal.Mm

end
-- ==== Proof.MatmulFirst.lean ====
/-
  The matrix-product kernel's body at a point with k = 0 (the first of its group).  It loads the activation block
  and the weight block, forms their product; loads the outlier activations, the outlier weight block and the bias
  block and stores  outlier product + bias  into the accumulator; reads the accumulator back, adds the product and
  stores the sum.  The output buffer is not touched.  The pieces the accumulator ends with are found by running the body.
-/
import proofs.«144596_j15461882266230_2_alg».proof.Proof.MatmulShared

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces (last store first) after the body at a point with `k = 0`, with the proof that on whole
    buffers — the five inputs at their contents, the accumulator at anything — the body runs to a continuation holding
    the inputs as they were and the accumulator with those pieces written. -/
noncomputable def runFirst (c : Dev nD) (i : grid1.Coords) (arg3 : Memref sig .tc .vmem S1024x1024 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole)
    (hf : isFirst i) (hl : ¬isLast i)
    (x0 : Vec F S1024x1024 .bf16) (x1 : Vec F S1024x128 .bf16) (x2 : Vec F S1024x1024 .bf16) (x3 : Vec F S128x1024 .bf16) (x4 : Vec F S1024 .f32) :
    { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare x4 ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare x3 ∗ owns (c : Thread nD τ) arg7 fullShare x4
                ∗ (∃ f, arg9.view.loc (c : Thread nD τ) ↦[arg9.view.set]{fullShare} arg9.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2
    obtain rfl := harg6.eq_unread hf3; obtain rfl := harg7.eq_unread hf4
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Mm

end
-- ==== Proof.MatmulMiddle.lean ====
/-
  The matrix-product kernel's body at a point with k = 1 or k = 2 (inside its group).  It loads the activation block
  and the weight block, forms their product, reads the accumulator — which holds what the point before left —, adds
  the product and stores the sum.  The outlier operands, the bias and the output buffer are not touched.
-/
import proofs.«144596_j15461882266230_2_alg».proof.Proof.MatmulShared

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The accumulator's pieces after the body at a point with `k ∈ {1, 2}`, with the proof that on whole buffers — the
    two inputs at their contents, the accumulator at `xs` — the body runs to a continuation holding the inputs as they
    were and the accumulator with those pieces written. -/
noncomputable def runMiddle (c : Dev nD) (i : grid1.Coords) (arg3 : Memref sig .tc .vmem S1024x1024 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole)
    (hf : ¬isFirst i) (hl : ¬isLast i)
    (x0 : Vec F S1024x1024 .bf16) (x2 : Vec F S1024x1024 .bf16) (xs : Vec F S1024x1024 .f32) :
    { LS : List (View.Piece (Elt F) S1024x1024 .f32) //
      ∀ (E : Set ℕ) (K : PUnit → sProp 𝕄),
        iprop(owns (c : Thread nD τ) arg3 fullShare x0 ∗ owns (c : Thread nD τ) arg5 fullShare x2 ∗ owns (c : Thread nD τ) arg9 fullShare xs
            ∗ (iprop(owns (c : Thread nD τ) arg3 fullShare x0 ∗ owns (c : Thread nD τ) arg5 fullShare x2
                ∗ (∃ f, arg9.view.loc (c : Thread nD τ) ↦[arg9.view.set]{fullShare} arg9.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, fun E K => ?run⟩
  case run =>
    simp only [cc1__main_kernel_eq_skeleton]; unfold cc1__main_kernel_skel
    unfold owns
    iintro ⟨⟨%f0, %hf0, H0⟩, ⟨%f2, %hf2, H2⟩, ⟨%fs, %hfs, HS⟩, Hk⟩
    obtain rfl := harg3.eq_unread hf0; obtain rfl := harg5.eq_unread hf2; obtain rfl := harg9.eq_unread hfs
    sl_exec (disch := first | exact hf | exact hl)
    sl_step
    iapply Hk
    isplitl [H0]
    · iexists _; isplitr; · ipureintro; exact harg3.read_unread _
      iexact H0
    isplitl [H2]
    · iexists _; isplitr; · ipureintro; exact harg5.read_unread _
      iexact H2
    iexists _; iexact HS

end Cert.KernelIdeal.Mm

end
-- ==== Proof.MatmulLast.lean ====
/-
  The matrix-product kernel's body at a point with k = 3 (the last of its group).  As inside the group it adds the
  product of its two blocks to the accumulator; then it reads the accumulator back and stores it into the output
  buffer, whole.
-/
import proofs.«144596_j15461882266230_2_alg».proof.Proof.MatmulShared

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The output buffer's and the accumulator's pieces after the body at a point with `k = 3`, with the proof that on
    whole buffers — the two inputs at their contents, the output buffer at anything, the accumulator at `xs` — the
    body runs to a continuation holding the inputs as they were and the two buffers with those pieces written. -/
noncomputable def runLast (c : Dev nD) (i : grid1.Coords) (arg3 : Memref sig .tc .vmem S1024x1024 .bf16) (harg3 : arg3.IsWhole) (arg4 : Memref sig .tc .vmem S1024x128 .bf16) (harg4 : arg4.IsWhole) (arg5 : Memref sig .tc .vmem S1024x1024 .bf16) (harg5 : arg5.IsWhole) (arg6 : Memref sig .tc .vmem S128x1024 .bf16) (harg6 : arg6.IsWhole) (arg7 : Memref sig .tc .vmem S1024 .f32) (harg7 : arg7.IsWhole) (arg8 : Memref sig .tc .vmem S1024x1024 .f32) (harg8 : arg8.IsWhole) (arg9 : Memref sig .tc .vmem S1024x1024 .f32) (harg9 : arg9.IsWhole)
    (hf : ¬isFirst i) (hl : isLast i)
    (x0 : Vec F S1024x1024 .bf16) (x2 : Vec F S1024x1024 .bf16) (xs : Vec F S1024x1024 .f32) :
    Σ' (LO : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg5 fullShare x2 ∗ (∃ d, owns (c : Thread nD τ) arg8 fullShare d)
            ∗ owns (c : Thread nD τ) arg9 fullShare xs
            ∗ (iprop(owns (c : Thread nD τ) arg3 fullShare x0 ∗ owns (c : Thread nD τ) arg5 fullShare x2
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc1__main_kernel i arg3 harg3 arg4 harg4 arg5 harg5 arg6 harg6 arg7 harg7 arg8 harg8 arg9 harg9) K } := by
  refine ⟨?_, ?_, fun E K => ?run⟩
  case run =>
    simp only [cc1__main_kernel_eq_skeleton]; unfold cc1__main_kernel_skel
    unfold owns
    iintro ⟨⟨%f0, %hf0, H0⟩, ⟨%f2, %hf2, H2⟩, ⟨%d5, %f5, -, H5⟩, ⟨%fs, %hfs, HS⟩, Hk⟩
    obtain rfl := harg3.eq_unread hf0; obtain rfl := harg5.eq_unread hf2; obtain rfl := harg9.eq_unread hfs
    sl_exec (disch := first | exact hf | exact hl)
    sl_step
    iapply Hk
    isplitl [H0]
    · iexists _; isplitr; · ipureintro; exact harg3.read_unread _
      iexact H0
    isplitl [H2]
    · iexists _; isplitr; · ipureintro; exact harg5.read_unread _
      iexact H2
    isplitl [H5]; · iexists _; iexact H5
    iexists _; iexact HS

end Cert.KernelIdeal.Mm

end
-- ==== Proof.MatmulRegion.lean ====
/-
  The second pallas_call (the matrix product) as a pipeline region, at any float instance and at any contents `V` of
  the core's buffers on entry: what the accumulator and the output buffer hold after each grid point, by recursion on
  the position — at k = 0 what the first-point body leaves from the point's five input blocks, at k = 1, 2 what the
  middle body leaves from the two product blocks and the accumulator of the point before, at k = 3 the same and the
  output buffer at a copy of it —, the region's invariant (before the first point every scoped buffer at anything;
  afterwards the accumulator at what the point before left), the proof data, and the body obligation at every point.
-/
import proofs.«144596_j15461882266230_2_alg».proof.Proof.MatmulFirst
import proofs.«144596_j15461882266230_2_alg».proof.Proof.MatmulMiddle
import proofs.«144596_j15461882266230_2_alg».proof.Proof.MatmulLast

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three bodies at a point's own buffers -/

/-- The body's run at point `t` with `k = 0`, on the buffers the pipeline passes there. -/
def atFirst (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16) (x4 : Vec F S1024 .f32) :=
  runFirst c (grid1.coords t) (ms_0 t) (hs_0 t) (ms_1 t) (hs_1 t) (ms_2 t) (hs_2 t) (ms_3 t) (hs_3 t) (ms_4 t) (hs_4 t) (ms_5 t) (hs_5 t) scM (Memref.isWhole_whole _) hf hl x0 x1 x2 x3 x4
/-- … with `k ∈ {1, 2}`, -/
def atMiddle (c : Dev nD) (t : Fin cfg1.N) (hf : ¬isFirst (grid1.coords t)) (hl : ¬isLast (grid1.coords t))
    (x0 x2 : Vec F S1024x1024 .bf16) (xs : Vec F S1024x1024 .f32) :=
  runMiddle c (grid1.coords t) (ms_0 t) (hs_0 t) (ms_1 t) (hs_1 t) (ms_2 t) (hs_2 t) (ms_3 t) (hs_3 t) (ms_4 t) (hs_4 t) (ms_5 t) (hs_5 t) scM (Memref.isWhole_whole _) hf hl x0 x2 xs
/-- … with `k = 3`. -/
def atLast (c : Dev nD) (t : Fin cfg1.N) (hf : ¬isFirst (grid1.coords t)) (hl : isLast (grid1.coords t))
    (x0 x2 : Vec F S1024x1024 .bf16) (xs : Vec F S1024x1024 .f32) :=
  runLast c (grid1.coords t) (ms_0 t) (hs_0 t) (ms_1 t) (hs_1 t) (ms_2 t) (hs_2 t) (ms_3 t) (hs_3 t) (ms_4 t) (hs_4 t) (ms_5 t) (hs_5 t) scM (Memref.isWhole_whole _) hf hl x0 x2 xs

/-- Each body's stores into the accumulator are whole-buffer stores, so they cover it; so do the last body's into the
    output buffer. -/
theorem first_cover (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16) (x4 : Vec F S1024 .f32)
    (y : S1024x1024.Idx) : ∃ pc ∈ (atFirst c t hf hl x0 x1 x2 x3 x4).1, y ∈ pc.1.set :=
  View.cover_of_tiledL (atFirst c t hf hl x0 x1 x2 x3 x4).1 S1024x1024.size (by sl_kernel_rfl) y
theorem middle_cover (c : Dev nD) (t : Fin cfg1.N) (hf : ¬isFirst (grid1.coords t)) (hl : ¬isLast (grid1.coords t))
    (x0 x2 : Vec F S1024x1024 .bf16) (xs : Vec F S1024x1024 .f32)
    (y : S1024x1024.Idx) : ∃ pc ∈ (atMiddle c t hf hl x0 x2 xs).1, y ∈ pc.1.set :=
  View.cover_of_tiledL (atMiddle c t hf hl x0 x2 xs).1 S1024x1024.size (by sl_kernel_rfl) y
theorem last_cover (c : Dev nD) (t : Fin cfg1.N) (hf : ¬isFirst (grid1.coords t)) (hl : isLast (grid1.coords t))
    (x0 x2 : Vec F S1024x1024 .bf16) (xs : Vec F S1024x1024 .f32)
    (y : S1024x1024.Idx) : ∃ pc ∈ (atLast c t hf hl x0 x2 xs).2.1, y ∈ pc.1.set :=
  View.cover_of_tiledL (atLast c t hf hl x0 x2 xs).2.1 S1024x1024.size (by sl_kernel_rfl) y
theorem last_out_cover (c : Dev nD) (t : Fin cfg1.N) (hf : ¬isFirst (grid1.coords t)) (hl : isLast (grid1.coords t))
    (x0 x2 : Vec F S1024x1024 .bf16) (xs : Vec F S1024x1024 .f32)
    (y : S1024x1024.Idx) : ∃ pc ∈ (atLast c t hf hl x0 x2 xs).1, y ∈ pc.1.set :=
  View.cover_of_tiledL (atLast c t hf hl x0 x2 xs).1 S1024x1024.size (by sl_kernel_rfl) y

/-- What each body leaves in the accumulator: its pieces read back. -/
def accFirst (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16) (x4 : Vec F S1024 .f32) :
    Vec F S1024x1024 .f32 :=
  VS.read (Elt F) (VS.writes (Elt F) VS.junk (atFirst c t hf hl x0 x1 x2 x3 x4).1)
def accMiddle (c : Dev nD) (t : Fin cfg1.N) (hf : ¬isFirst (grid1.coords t)) (hl : ¬isLast (grid1.coords t))
    (x0 x2 : Vec F S1024x1024 .bf16) (xs : Vec F S1024x1024 .f32) : Vec F S1024x1024 .f32 :=
  VS.read (Elt F) (VS.writes (Elt F) VS.junk (atMiddle c t hf hl x0 x2 xs).1)
def accLast (c : Dev nD) (t : Fin cfg1.N) (hf : ¬isFirst (grid1.coords t)) (hl : isLast (grid1.coords t))
    (x0 x2 : Vec F S1024x1024 .bf16) (xs : Vec F S1024x1024 .f32) : Vec F S1024x1024 .f32 :=
  VS.read (Elt F) (VS.writes (Elt F) VS.junk (atLast c t hf hl x0 x2 xs).2.1)
/-- What the last body leaves in the output buffer. -/
def outLast (c : Dev nD) (t : Fin cfg1.N) (hf : ¬isFirst (grid1.coords t)) (hl : isLast (grid1.coords t))
    (x0 x2 : Vec F S1024x1024 .bf16) (xs : Vec F S1024x1024 .f32) : Vec F S1024x1024 .f32 :=
  VO.read (Elt F) (VO.writes (Elt F) VO.junk (atLast c t hf hl x0 x2 xs).1)
/-- A placeholder for the output buffer at the points that do not store it: nothing reads it (the window is idle
    there and not written back). -/
def noOut : Vec F S1024x1024 .f32 := VO.read (Elt F) VO.junk

/-! ## The accumulation over the grid -/

/-- What the output buffer and the accumulator hold after the body at position `n` (a pair, in that order). -/
def outs (c : Dev nD) : (n : ℕ) → n < cfg1.N → Vec F S1024x1024 .f32 × Vec F S1024x1024 .f32
  | 0, hn => (noOut, accFirst c ⟨0, hn⟩ ((first_iff ⟨0, hn⟩).mpr (Nat.zero_mod _)) (fun h => (fun h => by (try dsimp only at h); omega) ((last_iff ⟨0, hn⟩).mp h))
      (blk V c 0 ⟨0, hn⟩) (blk V c 1 ⟨0, hn⟩) (blk V c 2 ⟨0, hn⟩) (blk V c 3 ⟨0, hn⟩) (blk V c 4 ⟨0, hn⟩))
  | n + 1, hn =>
    if h0 : (n + 1) % 4 = 0 then
      (noOut, accFirst c ⟨n + 1, hn⟩ ((first_iff ⟨n + 1, hn⟩).mpr h0) (fun h => (fun h => by (try dsimp only at h); omega) ((last_iff ⟨n + 1, hn⟩).mp h))
        (blk V c 0 ⟨n + 1, hn⟩) (blk V c 1 ⟨n + 1, hn⟩) (blk V c 2 ⟨n + 1, hn⟩) (blk V c 3 ⟨n + 1, hn⟩) (blk V c 4 ⟨n + 1, hn⟩))
    else if h3 : (n + 1) % 4 = 3 then
      (outLast c ⟨n + 1, hn⟩ (fun h => h0 ((first_iff ⟨n + 1, hn⟩).mp h)) ((last_iff ⟨n + 1, hn⟩).mpr h3)
          (blk V c 0 ⟨n + 1, hn⟩) (blk V c 2 ⟨n + 1, hn⟩) (outs c n (Nat.lt_of_succ_lt hn)).2,
        accLast c ⟨n + 1, hn⟩ (fun h => h0 ((first_iff ⟨n + 1, hn⟩).mp h)) ((last_iff ⟨n + 1, hn⟩).mpr h3)
          (blk V c 0 ⟨n + 1, hn⟩) (blk V c 2 ⟨n + 1, hn⟩) (outs c n (Nat.lt_of_succ_lt hn)).2)
    else
      (noOut, accMiddle c ⟨n + 1, hn⟩ (fun h => h0 ((first_iff ⟨n + 1, hn⟩).mp h)) (fun h => h3 ((last_iff ⟨n + 1, hn⟩).mp h))
        (blk V c 0 ⟨n + 1, hn⟩) (blk V c 2 ⟨n + 1, hn⟩) (outs c n (Nat.lt_of_succ_lt hn)).2)

/-- The accumulator the point before `t` left. -/
abbrev prevAcc (c : Dev nD) (t : Fin cfg1.N) : Vec F S1024x1024 .f32 :=
  (outs V c (t.val - 1) (Nat.lt_of_le_of_lt (Nat.sub_le _ _) t.isLt)).2

theorem outs_first (c : Dev nD) (t : Fin cfg1.N) (h0 : t.val % 4 = 0) :
    outs V c t.val t.isLt = (noOut, accFirst c t ((first_iff t).mpr h0) (fun h => (fun h => by omega) ((last_iff t).mp h))
      (blk V c 0 t) (blk V c 1 t) (blk V c 2 t) (blk V c 3 t) (blk V c 4 t)) := by
  obtain ⟨n, hn⟩ := t
  cases n with
  | zero => exact rfl
  | succ n => exact (dif_pos h0).trans rfl

theorem outs_middle (c : Dev nD) (t : Fin cfg1.N) (h0 : ¬t.val % 4 = 0) (h3 : ¬t.val % 4 = 3) :
    outs V c t.val t.isLt = (noOut, accMiddle c t (fun h => h0 ((first_iff t).mp h)) (fun h => h3 ((last_iff t).mp h))
      (blk V c 0 t) (blk V c 2 t) (prevAcc V c t)) := by
  obtain ⟨n, hn⟩ := t
  cases n with
  | zero => exact (by exfalso; (try dsimp only at h0); exact absurd (Nat.zero_mod _) h0)
  | succ n => exact (dif_neg h0).trans ((dif_neg h3).trans rfl)

theorem outs_last (c : Dev nD) (t : Fin cfg1.N) (h0 : ¬t.val % 4 = 0) (h3 : t.val % 4 = 3) :
    outs V c t.val t.isLt = (outLast c t (fun h => h0 ((first_iff t).mp h)) ((last_iff t).mpr h3) (blk V c 0 t) (blk V c 2 t) (prevAcc V c t),
      accLast c t (fun h => h0 ((first_iff t).mp h)) ((last_iff t).mpr h3) (blk V c 0 t) (blk V c 2 t) (prevAcc V c t)) := by
  obtain ⟨n, hn⟩ := t
  cases n with
  | zero => exact (by exfalso; (try dsimp only at h0); exact absurd (Nat.zero_mod _) h0)
  | succ n => exact (dif_neg h0).trans ((dif_pos h3).trans rfl)

/-! ## The invariant -/

/-- Before position `n`: at the start every scoped buffer at anything; afterwards the accumulator at what the point
    before left, the other scoped buffers at anything, the generator register at some state. -/
def Inv (c : Dev nD) : (n : ℕ) → n ≤ cfg1.N → sProp 𝕄
  | 0, _ => Pipeline.ΦA spec1 c
  | n + 1, hn => iprop(iprop(owns (c : Thread nD τ) scM fullShare ((outs V c n hn).2) ∗ others c) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(owns (c : Thread nD τ) scM fullShare ((outs V c n hn).2) ∗ others c) ∗ (∃ r, prngReg c r)) := rfl
theorem Inv_pos (c : Dev nD) (n : ℕ) (h : n ≤ cfg1.N) (hz : n ≠ 0) :
    Inv V c n h = iprop(iprop(owns (c : Thread nD τ) scM fullShare ((outs V c (n - 1) (by omega)).2) ∗ others c) ∗ (∃ r, prngReg c r)) := by
  cases n with
  | zero => exact absurd rfl hz
  | succ n => rfl

/-! ## The proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => (outs V c t.val t.isLt).1
  Φ t := Inv V c t.val (Nat.le_of_lt_succ t.isLt)
  q _ := fullShare
  owed _ := 0

theorem dat_A (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) : (dat V c).after 4 t = blk V c 4 t := by dsimp only [dat]
theorem after_5 (c : Dev nD) (t : Fin cfg1.N) : (dat V c).after 5 t = (outs V c t.val t.isLt).1 := by dsimp only [dat]

theorem found_0 (c : Dev nD) (t : Fin cfg1.N) (d) : (dat V c).before 0 t d = blk V c 0 t :=
  found_of_0 V (dat V c) (dat_A V c 0) (after_0 V c) t d
theorem found_1 (c : Dev nD) (t : Fin cfg1.N) (d) : (dat V c).before 1 t d = blk V c 1 t :=
  found_of_1 V (dat V c) (dat_A V c 1) (after_1 V c) t d
theorem found_2 (c : Dev nD) (t : Fin cfg1.N) (d) : (dat V c).before 2 t d = blk V c 2 t :=
  found_of_2 V (dat V c) (dat_A V c 2) (after_2 V c) t d
theorem found_3 (c : Dev nD) (t : Fin cfg1.N) (d) : (dat V c).before 3 t d = blk V c 3 t :=
  found_of_3 V (dat V c) (dat_A V c 3) (after_3 V c) t d
theorem found_4 (c : Dev nD) (t : Fin cfg1.N) (d) : (dat V c).before 4 t d = blk V c 4 t :=
  found_of_4 V (dat V c) (dat_A V c 4) (after_4 V c) t d

/-! ## The body obligation -/

def pointPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d))
    ∗ (∃ d, owns (c : Thread nD τ) (ms_4 t) fullShare ((dat V c).before 4 t d))
    ∗ (∃ d, owns (c : Thread nD τ) (ms_5 t) fullShare ((dat V c).before 5 t d)))

def pointPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t
    ∗ (dat V c).leavesExact 3 t ∗ (dat V c).leavesExact 4 t ∗ (dat V c).leavesExact 5 t)

theorem leaves_0 (c : Dev nD) (t : Fin cfg1.N) : (dat V c).leavesExact 0 t = owns (c : Thread nD τ) (ms_0 t) fullShare (blk V c 0 t) := by
  rw [show (dat V c).leavesExact 0 t = owns (c : Thread nD τ) (ms_0 t) fullShare ((dat V c).after 0 t) from by
    unfold Dat.leavesExact; rw [live_0 t], after_0]
theorem leaves_1 (c : Dev nD) (t : Fin cfg1.N) : (dat V c).leavesExact 1 t = owns (c : Thread nD τ) (ms_1 t) fullShare (blk V c 1 t) := by
  rw [show (dat V c).leavesExact 1 t = owns (c : Thread nD τ) (ms_1 t) fullShare ((dat V c).after 1 t) from by
    unfold Dat.leavesExact; rw [live_1 t], after_1]
theorem leaves_2 (c : Dev nD) (t : Fin cfg1.N) : (dat V c).leavesExact 2 t = owns (c : Thread nD τ) (ms_2 t) fullShare (blk V c 2 t) := by
  rw [show (dat V c).leavesExact 2 t = owns (c : Thread nD τ) (ms_2 t) fullShare ((dat V c).after 2 t) from by
    unfold Dat.leavesExact; rw [live_2 t], after_2]
theorem leaves_3 (c : Dev nD) (t : Fin cfg1.N) : (dat V c).leavesExact 3 t = owns (c : Thread nD τ) (ms_3 t) fullShare (blk V c 3 t) := by
  rw [show (dat V c).leavesExact 3 t = owns (c : Thread nD τ) (ms_3 t) fullShare ((dat V c).after 3 t) from by
    unfold Dat.leavesExact; rw [live_3 t], after_3]
theorem leaves_4 (c : Dev nD) (t : Fin cfg1.N) : (dat V c).leavesExact 4 t = owns (c : Thread nD τ) (ms_4 t) fullShare (blk V c 4 t) := by
  rw [show (dat V c).leavesExact 4 t = owns (c : Thread nD τ) (ms_4 t) fullShare ((dat V c).after 4 t) from by
    unfold Dat.leavesExact; rw [live_4 t], after_4]

set_option maxHeartbeats 4800000 in
/-- The body at any point: the inputs' buffers hold their blocks; the closed forms say which of the three bodies the
    point runs; the invariant hands it the accumulator at what the point before left (at anything before the first
    point) and takes it back at this point's contents; the output buffer is handed back untouched except at k = 3. -/
theorem point_sound (c : Dev nD) (t : Fin cfg1.N) :
    pointPre V c t ⊢ wp frame (wpE (defs₀ (F := F)) Variants.none c none) Set.univ (bodyAt1 t) (fun _ => pointPost V c t) := by
  unfold pointPre pointPost bodyAt1
  simp only [found_0, found_1, found_2, found_3, found_4, leaves_0, leaves_1, leaves_2, leaves_3, leaves_4]
  rw [show (dat V c).owesAt () t.succ = (dat V c).owesAt () t.castSucc from rfl]
  rw [show (dat V c).Φ t.succ = Inv V c (t.val + 1) t.isLt from rfl, Inv_succ]
  have hN : t.val < 128 := lt_of_lt_of_eq t.isLt (show cfg1.N = 128 from N_1)
  by_cases h0 : t.val % 4 = 0
  · have h3 : ¬t.val % 4 = 3 := by omega
    rw [Dat.leavesExact_idle (dat V c) 5 t (out_idle t (fun h => h3 ((last_iff t).mp h))) (out_kept t (fun h => h3 ((last_iff t).mp h)))]
    rw [outs_first V c t h0]
    unfold accFirst; (try dsimp only)
    by_cases hz : t.val = 0
    · rw [Inv_castSucc V c t, Inv_zero V c _ _ hz, PhiA_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atFirst c t ((first_iff t).mpr h0) (fun h => (fun h => by omega) ((last_iff t).mp h)) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hr Hg]
      · isplitl [HS Hr]
        · isplitl [HS]
          · unfold owns; iexists _; isplitr
            swap; · iexact HS
            ipureintro; exact View.read_writes_of_cover _ _ _ _ _ (first_cover c t _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [Inv_castSucc V c t, Inv_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atFirst c t ((first_iff t).mpr h0) (fun h => (fun h => by omega) ((last_iff t).mp h)) (blk V c 0 t) (blk V c 1 t) (blk V c 2 t) (blk V c 3 t) (blk V c 4 t)).2 Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS Hr Hg]
      · isplitl [HS Hr]
        · isplitl [HS]
          · unfold owns; iexists _; isplitr
            swap; · iexact HS
            ipureintro; exact View.read_writes_of_cover _ _ _ _ _ (first_cover c t _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h3 : t.val % 4 = 3
    · rw [show (dat V c).leavesExact 5 t = owns (c : Thread nD τ) (ms_5 t) fullShare ((dat V c).after 5 t) from by
        unfold Dat.leavesExact; rw [out_live t ((last_iff t).mpr h3)], after_5]
      rw [outs_last V c t h0 h3]
      unfold outLast accLast; (try dsimp only)
      rw [Inv_castSucc V c t, Inv_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atLast c t (fun h => h0 ((first_iff t).mp h)) ((last_iff t).mpr h3) (blk V c 0 t) (blk V c 2 t) (prevAcc V c t)).2.2 Set.univ _)
      isplitl [H0]; · iexact H0
      isplitl [H2]; · iexact H2
      isplitl [H5]; · iexists _; iexact H5
      isplitl [HS]; · iexact HS
      iintro ⟨H0, H2, ⟨%e5, H5⟩, ⟨%es, HS⟩⟩
      isplitl [HS Hr Hg]
      · isplitl [HS Hr]
        · isplitl [HS]
          · unfold owns; iexists _; isplitr
            swap; · iexact HS
            ipureintro; exact View.read_writes_of_cover _ _ _ _ _ (last_cover c t _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (last_out_cover c t _ _ _ _ _)
    · rw [Dat.leavesExact_idle (dat V c) 5 t (out_idle t (fun h => h3 ((last_iff t).mp h))) (out_kept t (fun h => h3 ((last_iff t).mp h)))]
      rw [outs_middle V c t h0 h3]
      unfold accMiddle; (try dsimp only)
      rw [Inv_castSucc V c t, Inv_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply ((atMiddle c t (fun h => h0 ((first_iff t).mp h)) (fun h => h3 ((last_iff t).mp h)) (blk V c 0 t) (blk V c 2 t) (prevAcc V c t)).2 Set.univ _)
      isplitl [H0]; · iexact H0
      isplitl [H2]; · iexact H2
      isplitl [HS]; · iexact HS
      iintro ⟨H0, H2, ⟨%es, HS⟩⟩
      isplitl [HS Hr Hg]
      · isplitl [HS Hr]
        · isplitl [HS]
          · unfold owns; iexists _; isplitr
            swap; · iexact HS
            ipureintro; exact View.read_writes_of_cover _ _ _ _ _ (middle_cover c t _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat (F := F) V c) (defs₀ (F := F)) Variants.none () Set.univ := fun t => by
  rw [bigSep_W1, bigSep_W1]
  exact point_sound V c t

/-- What the region is entered with is the invariant before the first point. -/
theorem inv_in (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- After the last point the invariant gives that back: what the accumulator holds is forgotten. -/
theorem inv_out (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl,
    Inv_pos V c _ _ (by rw [Fin.val_last]; have : cfg1.N = 128 := N_1; omega), PhiA_eq]
  iintro ⟨⟨HS, Hr⟩, Hg⟩
  isplitl [HS Hr]
  · isplitl [HS]
    · iexists _; iexact HS
    iexact Hr
  iexact Hg

end Cert.KernelIdeal.Mm

end
-- ==== Proof.WholeRun.lean ====
/-
  The whole program as a run: its host operations before the kernels (reshape, casts, slice, transposes), the
  dequantisation region, the matrix-product region, and the closing reshape, composed in order.  Between two items
  every unscoped buffer of the core is held at named contents: the launch memory, then what the first host stretch
  computes from it, then the same with the first region's arrays at what its write-backs leave, then likewise for the
  second region, then what the closing reshape computes.  The conclusion names the final contents of EVERY unscoped
  buffer; the frame claim (arguments unchanged) and the value of the result are read off it.
-/
import proofs.«144596_j15461882266230_2_alg».proof.Proof.DequantRegion
import proofs.«144596_j15461882266230_2_alg».proof.Proof.MatmulRegion
import proofs.«144596_j15461882266230_2_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m (c, b)
/-- After the host operations before the kernels. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the dequantisation region: its arrays at what its write-backs leave, every other buffer as entered. -/
def W2 (c : Dev nD) : Valuation τ sig (Elt F) :=
  Pipeline.withArrays spec0 c (W1 m c) fun w => (Dq.dat (V1 m) c).arrAt w cfg0.N
theorem W2_arr (c : Dev nD) (w : Fin cfg0.W) :
    W2 m c (Proc.devRef .tc (Pipeline.arrRef spec0 w)) = (Dq.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem exit0 (c : Dev nD) (w : Fin cfg0.W) : (Dq.dat (V1 m) c).arrAt w cfg0.N = V2 m c (Pipeline.arrRef spec0 w) :=
  (W2_arr m c w).symm
theorem rest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the matrix-product region, likewise. -/
def W3 (c : Dev nD) : Valuation τ sig (Elt F) :=
  Pipeline.withArrays spec1 c (W2 m c) fun w => (Mm.dat (V2 m) c).arrAt w cfg1.N
theorem W3_arr (c : Dev nD) (w : Fin cfg1.W) :
    W3 m c (Proc.devRef .tc (Pipeline.arrRef spec1 w)) = (Mm.dat (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem exit1 (c : Dev nD) (w : Fin cfg1.W) : (Mm.dat (V2 m) c).arrAt w cfg1.N = V3 m c (Pipeline.arrRef spec1 w) :=
  (W3_arr m c w).symm
theorem rest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing reshape. -/
abbrev W4 : Dev nD → Valuation τ sig (Elt F) := fun c => StableHlo.after hostOps2 (W3 m c)

/-! ## The arguments end as launched -/

theorem W1_keep (c : Dev nD) (r : Ref sig .tc) (h : r ∉ hostOps0_W) : W1 m c (Proc.devRef .tc r) = m ((c : Thread nD τ).loc r) :=
  StableHlo.after_of_writes_sub hostOps0 _ hostOps0_writes h
theorem W4_keep (c : Dev nD) (r : Ref sig .tc) (h : r ∉ hostOps2_W) : W4 m c (Proc.devRef .tc r) = W3 m c (Proc.devRef .tc r) :=
  StableHlo.after_of_writes_sub hostOps2 _ hostOps2_writes h

theorem end_arg0 (c : Dev nD) : W4 m c (Proc.devRef .tc main_arg0) = m ((c : Thread nD τ).loc main_arg0) :=
  (W4_keep m c main_arg0 (by decide)).trans <| (W3_of_ne m c main_arg0 (by decide)).trans <|
    (W2_of_ne m c main_arg0 (by decide)).trans <| W1_keep m c main_arg0 (by decide)
theorem end_arg1 (c : Dev nD) : W4 m c (Proc.devRef .tc main_arg1) = m ((c : Thread nD τ).loc main_arg1) :=
  (W4_keep m c main_arg1 (by decide)).trans <| (W3_of_ne m c main_arg1 (by decide)).trans <|
    (W2_of_ne m c main_arg1 (by decide)).trans <| W1_keep m c main_arg1 (by decide)
theorem end_arg2 (c : Dev nD) : W4 m c (Proc.devRef .tc main_arg2) = m ((c : Thread nD τ).loc main_arg2) :=
  (W4_keep m c main_arg2 (by decide)).trans <| (W3_of_ne m c main_arg2 (by decide)).trans <|
    ((W2_arr m c 1).trans (((Dq.dat (V1 m) c).arrAt_in 1 rfl _).trans (Dq.dat_A (V1 m) c 1))).trans <| W1_keep m c main_arg2 (by decide)
theorem end_arg3 (c : Dev nD) : W4 m c (Proc.devRef .tc main_arg3) = m ((c : Thread nD τ).loc main_arg3) :=
  (W4_keep m c main_arg3 (by decide)).trans <| (W3_of_ne m c main_arg3 (by decide)).trans <|
    ((W2_arr m c 2).trans (((Dq.dat (V1 m) c).arrAt_in 2 rfl _).trans (Dq.dat_A (V1 m) c 2))).trans <| W1_keep m c main_arg3 (by decide)
theorem end_arg4 (c : Dev nD) : W4 m c (Proc.devRef .tc main_arg4) = m ((c : Thread nD τ).loc main_arg4) :=
  (W4_keep m c main_arg4 (by decide)).trans <| (W3_of_ne m c main_arg4 (by decide)).trans <|
    (W2_of_ne m c main_arg4 (by decide)).trans <| W1_keep m c main_arg4 (by decide)
theorem end_arg5 (c : Dev nD) : W4 m c (Proc.devRef .tc main_arg5) = m ((c : Thread nD τ).loc main_arg5) :=
  (W4_keep m c main_arg5 (by decide)).trans <|
    ((W3_arr m c 4).trans (((Mm.dat (V2 m) c).arrAt_in 4 rfl _).trans (Mm.dat_A (V2 m) c 4))).trans <|
    (W2_of_ne m c main_arg5 (by decide)).trans <| W1_keep m c main_arg5 (by decide)

/-! ## The proof data of both regions, and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Dq.dat (V1 m) c
  | ⟨1, _⟩ => fun c => Mm.dat (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := StableHlo.held (c : Thread nD τ) (Pipeline.ucRefs τ sig) (W4 m c)

/-! ## The two regions as segments -/

set_option backward.isDefEq.respectTransparency.types false in
/-- The dequantisation region: entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dq.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (exit0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W2`, left at `W3`; its invariant starts as the
    class's and ends giving it back (the accumulator's contents forgotten). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Mm.body_obligation (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show Pipeline.ΦA spec1 c ⊢ (pdats m 1 c).Φ 0 from Mm.inv_in (V2 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ Pipeline.ΦA spec1 c from Mm.inv_out (V2 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (exit1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer of every core at `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => sep_mono .rfl (show R c ⊢ (iprop(∃ W, owes (c : Thread nD τ) (0 : CellTallies nD τ sig Unit) W) : sProp 𝕄) from by
      iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      unfold Tₙ StableHlo.held
      iintro ⟨Hh, HSI⟩
      imodintro
      iapply (pointsTo_read_all (Pipeline.ucRefs τ sig) (fun b => (((c : Thread nD τ)).1, b)) (W4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (end_arg0 m c),
     (h c _ (mem_uc main_arg1 (by decide))).trans (end_arg1 m c),
     (h c _ (mem_uc main_arg2 (by decide))).trans (end_arg2 m c),
     (h c _ (mem_uc main_arg3 (by decide))).trans (end_arg3 m c),
     (h c _ (mem_uc main_arg4 (by decide))).trans (end_arg4 m c),
     (h c _ (mem_uc main_arg5 (by decide))).trans (end_arg5 m c)⟩) (run_all m ρ)

end Cert.KernelIdeal.Whole

end
-- ==== Proof.Spec.lean ====
/-
  The mathematics of the quantised linear layer, stated once over the argument arrays.

  The weight is kept as 4-bit integers `Q[n, k]` with one scale and one (pre-scaled) zero per group of 128
  consecutive input features: `W[k, n] = Q[n, k] · scale[k / 128, n] + zero[k / 128, n]`.  The layer's result is
  `y[r, n] = Σ_k x[r, k] · W[k, n]  +  Σ_o x[r, 3968 + o] · OW[n, o]  +  bias[n]`: the dense product with the
  dequantised weight, a second ("outlier") product of the last 128 input features with an unquantised weight, and
  the bias.  Two arrangements of that sum are named here: the one that accumulates four blocks of 1024 input
  features onto the outlier-plus-bias term (`yker`), and the one that adds the whole dense product, the outlier
  product and the bias in that order (`yref`).  They are equal on the extended reals because addition there is
  commutative and associative; no finiteness is needed (`Law.lean`).
-/
import Idealize.ShloMosaic.PureOps.Ideal
import Idealize.ShloMosaic.Lib.ValueIdx

noncomputable section

namespace Cert.QLin

open Idealize.ShloMosaic Idealize.ShloMosaic.ValueIdx

/-- The activations `x : [4, 2048, 4096]`. -/
abbrev SX : Shape := ⟨3, ![4, 2048, 4096]⟩
/-- The integer weight `Q : [4096 (n), 4096 (k)]`. -/
abbrev SQ : Shape := ⟨2, ![4096, 4096]⟩
/-- Scales and zeros `: [32 (group), 4096 (n)]`. -/
abbrev SG : Shape := ⟨2, ![32, 4096]⟩
/-- The outlier weight `OW : [4096 (n), 128 (o)]`. -/
abbrev SO : Shape := ⟨2, ![4096, 128]⟩
/-- The bias `: [4096 (n)]`. -/
abbrev SB : Shape := ⟨1, ![4096]⟩

/-- The quantisation group of input feature `k`: 128 consecutive features share a scale and a zero. -/
def grp (k : Fin 4096) : Fin 32 := ⟨k.val / 128, by have := k.isLt; omega⟩

/-- The dequantised weight `W[k, n] = Q[n, k] · scale[k / 128, n] + zero[k / 128, n]`. -/
def wd (Q : SQ.Idx → BitVec 32) (Sc Z : SG.Idx → EReal) (k n : Fin 4096) : EReal :=
  (((Q (ix2 n k)).toInt : ℝ) : EReal) * Sc (ix2 (grp k) n) + Z (ix2 (grp k) n)

/-- Row `r = 2048 · b + s` of the activations read as a matrix `[8192, 4096]`. -/
def xrow (X : SX.Idx → EReal) (r : Fin 8192) (k : Fin 4096) : EReal :=
  X (ix3 (⟨r.val / 2048, by have := r.isLt; omega⟩ : Fin 4) (⟨r.val % 2048, Nat.mod_lt _ (by decide)⟩ : Fin 2048) k)

/-- Input feature `3968 + o`, one of the last 128. -/
def tailK (o : Fin 128) : Fin 4096 := ⟨3968 + o.val, by have := o.isLt; omega⟩

/-- Input feature `1024 · kb + kk` of block `kb`. -/
def blkK (kb : Fin 4) (kk : Fin 1024) : Fin 4096 := ⟨1024 * kb.val + kk.val, by have := kb.isLt; have := kk.isLt; omega⟩

/-- The outlier product at `(r, n)`: the last 128 input features against `OW[n, ·]`. -/
def outl (X : SX.Idx → EReal) (OW : SO.Idx → EReal) (r : Fin 8192) (n : Fin 4096) : EReal :=
  ∑ o : Fin 128, xrow X r (tailK o) * OW (ix2 n o)

/-- Block `kb`'s share of the dense product at `(r, n)`: 1024 input features. -/
def part (X : SX.Idx → EReal) (Q : SQ.Idx → BitVec 32) (Sc Z : SG.Idx → EReal) (kb : Fin 4) (r : Fin 8192) (n : Fin 4096) : EReal :=
  ∑ kk : Fin 1024, xrow X r (blkK kb kk) * wd Q Sc Z (blkK kb kk) n

/-- What is accumulated after block `kb`: outlier product plus bias, then blocks `0 … kb` added one after the other. -/
def accUpTo (X : SX.Idx → EReal) (Q : SQ.Idx → BitVec 32) (Sc Z : SG.Idx → EReal) (OW : SO.Idx → EReal) (B : SB.Idx → EReal)
    (r : Fin 8192) (n : Fin 4096) : (kb : Nat) → EReal
  | 0 => (outl X OW r n + B (ix1 n)) + part X Q Sc Z 0 r n
  | kb + 1 => accUpTo X Q Sc Z OW B r n kb + (if h : kb + 1 < 4 then part X Q Sc Z ⟨kb + 1, h⟩ r n else 0)

/-- The block-accumulated arrangement: `(((outlier + bias) + block 0) + block 1) + block 2) + block 3`. -/
def yker (X : SX.Idx → EReal) (Q : SQ.Idx → BitVec 32) (Sc Z : SG.Idx → EReal) (OW : SO.Idx → EReal) (B : SB.Idx → EReal)
    (r : Fin 8192) (n : Fin 4096) : EReal :=
  accUpTo X Q Sc Z OW B r n 3

/-- The whole-product arrangement: `(dense product + outlier product) + bias`. -/
def yref (X : SX.Idx → EReal) (Q : SQ.Idx → BitVec 32) (Sc Z : SG.Idx → EReal) (OW : SO.Idx → EReal) (B : SB.Idx → EReal)
    (b : Fin 4) (s : Fin 2048) (n : Fin 4096) : EReal :=
  ((∑ k : Fin 4096, X (ix3 b s k) * wd Q Sc Z k n) + ∑ o : Fin 128, X (ix3 b s (tailK o)) * OW (ix2 n o)) + B (ix1 n)

/-- The layer's result as one array `[4, 2048, 4096]`. -/
def result (X : SX.Idx → EReal) (Q : SQ.Idx → BitVec 32) (Sc Z : SG.Idx → EReal) (OW : SO.Idx → EReal) (B : SB.Idx → EReal) :
    SX.Idx → EReal :=
  fun i => yref X Q Sc Z OW B (i 0) (i 1) (i 2)

/-- Row `2048 · b + s` of the `[8192, 4096]` reading. -/
def rowOf (b : Fin 4) (s : Fin 2048) : Fin 8192 := ⟨2048 * b.val + s.val, by have := b.isLt; have := s.isLt; omega⟩

/-- The dequantised weight over the TRANSPOSED integer weight `QT[k, n] = Q[n, k]`. -/
def wdT (QT : SQ.Idx → BitVec 32) (Sc Z : SG.Idx → EReal) (k n : Fin 4096) : EReal :=
  (((QT (ix2 k n)).toInt : ℝ) : EReal) * Sc (ix2 (grp k) n) + Z (ix2 (grp k) n)

theorem wd_eq_wdT (Q QT : SQ.Idx → BitVec 32) (h : ∀ k n : Fin 4096, QT (ix2 k n) = Q (ix2 n k)) (Sc Z : SG.Idx → EReal)
    (k n : Fin 4096) : wd Q Sc Z k n = wdT QT Sc Z k n := by
  unfold wd wdT; rw [h]

/-- The block accumulation for ONE output entry, over that entry's own data: its row of activations `xr`, its row's
    last 128 activations `xo`, its column of the weight `w`, its column of the transposed outlier weight `ow`, its
    bias `b`. After block `kb`: `(outlier + bias) + block 0 + … + block kb`, added in that order. -/
def gacc (xr : Fin 4096 → EReal) (xo : Fin 128 → EReal) (w : Fin 4096 → EReal) (ow : Fin 128 → EReal) (b : EReal) : Nat → EReal
  | 0 => ((∑ o : Fin 128, xo o * ow o) + b) + ∑ kk : Fin 1024, xr (blkK 0 kk) * w (blkK 0 kk)
  | kb + 1 => gacc xr xo w ow b kb + (if h : kb + 1 < 4 then ∑ kk : Fin 1024, xr (blkK ⟨kb + 1, h⟩ kk) * w (blkK ⟨kb + 1, h⟩ kk) else 0)

theorem accUpTo_eq_gacc (X : SX.Idx → EReal) (Q : SQ.Idx → BitVec 32) (Sc Z : SG.Idx → EReal) (OW : SO.Idx → EReal) (B : SB.Idx → EReal)
    (r : Fin 8192) (n : Fin 4096) (kb : Nat) :
    accUpTo X Q Sc Z OW B r n kb
      = gacc (fun k => xrow X r k) (fun o => xrow X r (tailK o)) (fun k => wd Q Sc Z k n) (fun o => OW (ix2 n o)) (B (ix1 n)) kb := by
  induction kb with
  | zero => rfl
  | succ kb ih => simp only [accUpTo, gacc, ih, part]

end Cert.QLin

end
-- ==== Proof.PayIdx.lean ====
/-
  The kernel's pure arithmetic, read one element at a time over the extended reals.

  The first kernel dequantises a `[1024, 1024]` block of the weight: the integer, times the scale of its row's group of
  128, plus the zero of that group.  The second kernel's two payloads are matrix products into a zero array: the outlier
  product `[1024, 128] × [128, 1024]` plus the bias row, and one block `[1024, 1024] × [1024, 1024]` of the dense product
  added to what was accumulated before.  Format changes and shape casts to the same shape are the identity on the
  extended reals, so each payload at `(p, q)` is the plain expression in its operands' elements.
-/
import proofs.«144596_j15461882266230_2_alg».proof.Proof.Spec
import proofs.«144596_j15461882266230_2_alg».proof.Proof.Gen.KernelIdeal.Skeleton
import proofs.«144596_j15461882266230_2_alg».proof.Proof.Gen.KernelIdeal.Launch
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.QLin.Pay

open Cert.KernelIdeal Cert.KernelIdeal.Gen Idealize.ShloMosaic Idealize.ShloMosaic.ValueIdx

/-! ## The dequantisation payload -/

/-- One row per group of 128 rows, spread over the group: `[8, 1024] → [8, 1, 1024] → [8, 128, 1024] → [1024, 1024]`.
    Row `p = 128 · g + i` of the result reads row `g = p / 128` of the operand. -/
theorem spread_apply (v : FVec Ideal S8x1024 .f32) (p q : Fin 1024) :
    shapeCast S1024x1024
      (broadcastTo S8x128x1024
        (shapeCast S8x1x1024 (shapeCast S8x1x1024 v shapeCasts_S8x1024_S8x1x1024) shapeCasts_S8x1x1024_S8x1x1024)
        broadcasts_S8x1x1024_S8x128x1024)
      shapeCasts_S8x128x1024_S1024x1024 (ix2 p q)
      = v (ix2 (⟨p.val / 128, by have := p.isLt; omega⟩ : Fin 8) q) := by
  have hp := p.isLt
  have hq := q.isLt
  refine (shapeCast_apply _ shapeCasts_S8x128x1024_S1024x1024 (ix2 p q)
    (ix3 (⟨p.val / 128, by omega⟩ : Fin 8) (⟨p.val % 128, Nat.mod_lt _ (by decide)⟩ : Fin 128) q) ?_).trans ?_
  · rw [Shape.rowMajor_val_three, Shape.rowMajor_val_two]
    show (p.val / 128 * 128 + p.val % 128) * 1024 + q.val = p.val * 1024 + q.val
    omega
  refine (broadcastTo_apply _ broadcasts_S8x1x1024_S8x128x1024 _
    (ix3 (⟨p.val / 128, by omega⟩ : Fin 8) (0 : Fin 1) q) (fun a => ?_)).trans ?_
  · match a with
    | ⟨0, _⟩ => rfl
    | ⟨1, _⟩ => rfl
    | ⟨2, _⟩ => rfl
  rw [shapeCast_self]
  exact shapeCast_apply v shapeCasts_S8x1024_S8x1x1024 _ (ix2 (⟨p.val / 128, by omega⟩ : Fin 8) q) (by
    rw [Shape.rowMajor_val_two, Shape.rowMajor_val_three]
    show p.val / 128 * 1024 + q.val = (p.val / 128 * 1 + 0) * 1024 + q.val
    omega)

/-- The dequantised block at `(p, q)`: the integer, times its group's scale, plus its group's zero. -/
theorem k0_pay1_apply (v0 : Vec Ideal S1024x1024 .i32) (v3 v4 : Vec Ideal S8x1024 .f32) (p q : Fin 1024) :
    k0_pay1 (F := Ideal) v0 v3 v4 (ix2 p q)
      = (((v0 (ix2 p q)).toInt : ℝ) : EReal) * v3 (ix2 (⟨p.val / 128, by have := p.isLt; omega⟩ : Fin 8) q)
        + v4 (ix2 (⟨p.val / 128, by have := p.isLt; omega⟩ : Fin 8) q) := by
  have e0 : shapeCast S1024x1024 v0 shapeCasts_S1024x1024_S1024x1024 = v0 := shapeCast_self _ _
  have e3 := spread_apply v3 p q
  have e4 := spread_apply v4 p q
  show (((shapeCast S1024x1024 v0 shapeCasts_S1024x1024_S1024x1024 (ix2 p q)).toInt : ℝ) : EReal) * _ + _ = _
  rw [e0, e3, e4]

/-! ## The two matrix products -/

theorem matmul128_apply_l0 (i : S1024x1024.Idx) (k : dot_S1024x128_S128x1024_S1024x1024_1_0_0_1_n_n.contr.Idx) :
    (dot_S1024x128_S128x1024_S1024x1024_1_0_0_1_n_n.lhsIdx i k 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem matmul128_apply_r1 (i : S1024x1024.Idx) (k : dot_S1024x128_S128x1024_S1024x1024_1_0_0_1_n_n.contr.Idx) :
    (dot_S1024x128_S128x1024_S1024x1024_1_0_0_1_n_n.rhsIdx i k 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product `[1024, 128] × [128, 1024]` into a zero array, at `(p, q)`: the sum over the 128 shared coordinates. -/
theorem matmul128_apply (a : FVec Ideal S1024x128 .bf16) (b : FVec Ideal S128x1024 .bf16) (p q : Fin 1024) :
    matmul dot_S1024x128_S128x1024_S1024x1024_1_0_0_1_n_n none a b (constant (F := Ideal) S1024x1024 .f32 0x00000000#32) (ix2 p q)
      = ∑ o : Fin 128, a (ix2 p o) * b (ix2 o q) := by
  show FloatOps.matmul dot_S1024x128_S128x1024_S1024x1024_1_0_0_1_n_n none a b (constant (F := Ideal) S1024x1024 .f32 0x00000000#32) (ix2 p q) = _
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k :=
    funext fun c => Fin.ext (by
      match c with
      | ⟨0, _⟩ => exact matmul128_apply_l0 _ _
      | ⟨1, _⟩ => exact (dot_S1024x128_S128x1024_S1024x1024_1_0_0_1_n_n.lhsIdx_val_of_single rfl _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q :=
    funext fun c => Fin.ext (by
      match c with
      | ⟨0, _⟩ => exact (dot_S1024x128_S128x1024_S1024x1024_1_0_0_1_n_n.rhsIdx_val_of_single rfl _ _).trans hk
      | ⟨1, _⟩ => exact matmul128_apply_r1 _ _)
  rw [el, er]

theorem matmul1024_apply_l0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl
theorem matmul1024_apply_r1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product `[1024, 1024] × [1024, 1024]` into a zero array, at `(p, q)`: the sum over the 1024 shared coordinates. -/
theorem matmul1024_apply (a : FVec Ideal S1024x1024 .bf16) (b : FVec Ideal S1024x1024 .bf16) (p q : Fin 1024) :
    matmul dot_S1024x1024_S1024x1024_S1024x1024_1_0_0_1_n_n none a b (constant (F := Ideal) S1024x1024 .f32 0x00000000#32) (ix2 p q)
      = ∑ o : Fin 1024, a (ix2 p o) * b (ix2 o q) := by
  show FloatOps.matmul dot_S1024x1024_S1024x1024_S1024x1024_1_0_0_1_n_n none a b (constant (F := Ideal) S1024x1024 .f32 0x00000000#32) (ix2 p q) = _
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun c => Fin.ext (by
      match c with
      | ⟨0, _⟩ => exact matmul1024_apply_l0 _ _
      | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun c => Fin.ext (by
      match c with
      | ⟨0, _⟩ => exact (dot_S1024x1024_S1024x1024_S1024x1024_1_0_0_1_n_n.rhsIdx_val_of_single rfl _ _).trans hk
      | ⟨1, _⟩ => exact matmul1024_apply_r1 _ _)
  rw [el, er]

/-- The outlier product plus the bias row, at `(p, q)`. -/
theorem k1_pay1_apply (v16 : Vec Ideal S1024x128 .bf16) (v18 : Vec Ideal S128x1024 .bf16) (v21 : Vec Ideal S1024 .f32)
    (p q : Fin 1024) :
    k1_pay1 (F := Ideal) v16 v18 v21 (ix2 p q) = (∑ o : Fin 128, v16 (ix2 p o) * v18 (ix2 o q)) + v21 (ix1 q) := by
  unfold k1_pay1
  rw [shapeCast_self, shapeCast_self v16, shapeCast_self v18]
  refine (addf_apply _ _ _).trans ?_
  rw [matmul128_apply]
  refine congrArg (_ + ·) ?_
  refine (broadcastTo_1b_ab_apply _ broadcasts_S1x1024_S1024x1024 p q).trans ?_
  exact shapeCast_a_1a_apply v21 shapeCasts_S1024_S1x1024 (0 : Fin 1) q

/-- One block of the dense product added to the accumulated array, at `(p, q)`. -/
theorem k1_pay2_apply (v0 v2 : Vec Ideal S1024x1024 .bf16) (v8 : Vec Ideal S1024x1024 .f32) (p q : Fin 1024) :
    k1_pay2 (F := Ideal) v0 v2 v8 (ix2 p q) = v8 (ix2 p q) + ∑ kk : Fin 1024, v0 (ix2 p kk) * v2 (ix2 kk q) := by
  unfold k1_pay2
  rw [shapeCast_self, shapeCast_self v0, shapeCast_self v2]
  refine (addf_apply _ _ _).trans ?_
  rw [matmul1024_apply]

end Cert.QLin.Pay

end
-- ==== Proof.MatmulBlocks.lean ====
/-
  The matrix-product region read in whole-array coordinates (at the exact instance).  Point t of the 8 × 4 × 4 grid
  is (i, j, k) = (t / 16, (t / 4) mod 4, t mod 4); entry (p, q) of its blocks sits at row r = 1024·i + p of the
  activations and column n = 1024·j + q of the weight, and block k covers input features 1024·k … 1024·k + 1023.
  Here: the index maps in closed form, each window's block read at such an entry, and what one body step does to
  one entry — the first step starts the entry's accumulation at outlier + bias + block 0, a later step adds its block.
-/
import proofs.«144596_j15461882266230_2_alg».proof.Proof.MatmulRegion
import proofs.«144596_j15461882266230_2_alg».proof.Proof.PayIdx
import proofs.«144596_j15461882266230_2_alg».proof.Proof.Spec
import Idealize.ShloMosaic.Lib.Pipeline.Value

noncomputable section

namespace Cert.QLin.MmVal

open Cert.KernelIdeal Cert.KernelIdeal.Gen Cert.KernelIdeal.Mm Cert.QLin
open Idealize.ShloMosaic Idealize.ShloMosaic.TcCoe Idealize.ShloMosaic.ValueIdx Idealize.SL.Sem

/-! ## One body step at one entry -/

/-- The first step: the entry starts at (outlier product + bias) + block 0's share. -/
theorem first_val (x0 : Vec Ideal S1024x1024 .bf16) (x1 : Vec Ideal S1024x128 .bf16) (x2 : Vec Ideal S1024x1024 .bf16)
    (x3 : Vec Ideal S128x1024 .bf16) (x4 : Vec Ideal S1024 .f32) (p q : Fin 1024)
    (xr : Fin 4096 → EReal) (xo : Fin 128 → EReal) (w : Fin 4096 → EReal) (ow : Fin 128 → EReal) (b : EReal)
    (h0 : ∀ kk : Fin 1024, x0 (ix2 p kk) = xr (blkK 0 kk)) (h1 : ∀ o : Fin 128, x1 (ix2 p o) = xo o)
    (h2 : ∀ kk : Fin 1024, x2 (ix2 kk q) = w (blkK 0 kk)) (h3 : ∀ o : Fin 128, x3 (ix2 o q) = ow o) (h4 : x4 (ix1 q) = b) :
    k1_pay2 (F := Ideal) x0 x2 (k1_pay1 (F := Ideal) x1 x3 x4) (ix2 p q) = gacc xr xo w ow b 0 := by
  refine (Pay.k1_pay2_apply x0 x2 _ p q).trans ?_
  rw [Pay.k1_pay1_apply x1 x3 x4 p q]
  simp only [gacc, h0, h1, h2, h3, h4]

/-- A later step: block `kb + 1`'s share is added to what the entry held. -/
theorem step_val (x0 x2 : Vec Ideal S1024x1024 .bf16) (xs : Vec Ideal S1024x1024 .f32) (p q : Fin 1024)
    (xr : Fin 4096 → EReal) (xo : Fin 128 → EReal) (w : Fin 4096 → EReal) (ow : Fin 128 → EReal) (b : EReal)
    (kb : Nat) (hkb : kb + 1 < 4)
    (h0 : ∀ kk : Fin 1024, x0 (ix2 p kk) = xr (blkK ⟨kb + 1, hkb⟩ kk))
    (h2 : ∀ kk : Fin 1024, x2 (ix2 kk q) = w (blkK ⟨kb + 1, hkb⟩ kk))
    (hs : xs (ix2 p q) = gacc xr xo w ow b kb) :
    k1_pay2 (F := Ideal) x0 x2 xs (ix2 p q) = gacc xr xo w ow b (kb + 1) := by
  refine (Pay.k1_pay2_apply x0 x2 xs p q).trans ?_
  simp only [gacc, dif_pos hkb, h0, h2, hs]

/-! ## The index maps over the grid -/

theorem idx_facts : ∀ t : Fin cfg1.N,
    win1_0.index t (0 : Fin 2) = t.val / 16 ∧ win1_0.index t (1 : Fin 2) = t.val % 4
    ∧ win1_1.index t (0 : Fin 2) = t.val / 16 ∧ win1_1.index t (1 : Fin 2) = 0
    ∧ win1_2.index t (0 : Fin 2) = t.val % 4 ∧ win1_2.index t (1 : Fin 2) = t.val / 4 % 4
    ∧ win1_3.index t (0 : Fin 2) = 0 ∧ win1_3.index t (1 : Fin 2) = t.val / 4 % 4
    ∧ win1_4.index t (0 : Fin 1) = t.val / 4 % 4
    ∧ win1_5.index t (0 : Fin 2) = t.val / 16 ∧ win1_5.index t (1 : Fin 2) = t.val / 4 % 4 :=
  (by decide +kernel : ∀ t : Fin grid1.N, _)

theorem lt128 (t : Fin cfg1.N) : t.val < 128 := lt_of_lt_of_eq t.isLt (show cfg1.N = 128 from N_1)

/-- The row of the activations and the column of the weight that entry (p, q) of point t's blocks is. -/
def gr (t : Fin cfg1.N) (p : Fin 1024) : Fin 8192 := ⟨1024 * (t.val / 16) + p.val, by have := lt128 t; have := p.isLt; omega⟩
def gn (t : Fin cfg1.N) (q : Fin 1024) : Fin 4096 := ⟨1024 * (t.val / 4 % 4) + q.val, by have := q.isLt; omega⟩
/-- The block of input features point t multiplies. -/
def gk (t : Fin cfg1.N) : Fin 4 := ⟨t.val % 4, Nat.mod_lt _ (by decide)⟩

variable (V : (c : Dev nD) → (b : Ref sig .tc) → Buf (Elt Ideal) ((c : Thread nD τ).loc b))

/-! ## The windows' blocks at an entry -/

theorem blk0_read (c : Dev nD) (t : Fin cfg1.N) (p kk : Fin 1024) :
    (blk V c 0 t : S1024x1024.Idx → EReal) (ix2 p kk) = (V c main_v1 : S8192x4096.Idx → EReal) (ix2 (gr t p) (blkK (gk t) kk)) := by
  obtain ⟨e0, e1, -⟩ := idx_facts t
  show (V c main_v1 : S8192x4096.Idx → EReal) (((cfg1.win 0).blk t).view.emb (ix2 p kk)) = _
  refine congrArg _ ?_
  funext a; apply Fin.ext
  match a with
  | ⟨0, _⟩ => show win1_0.index t (0 : Fin 2) * 1024 + 1 * p.val = 1024 * (t.val / 16) + p.val; omega
  | ⟨1, _⟩ => show win1_0.index t (1 : Fin 2) * 1024 + 1 * kk.val = 1024 * (t.val % 4) + kk.val; omega

theorem blk1_read (c : Dev nD) (t : Fin cfg1.N) (p : Fin 1024) (o : Fin 128) :
    (blk V c 1 t : S1024x128.Idx → EReal) (ix2 p o) = (V c main_v3 : S8192x128.Idx → EReal) (ix2 (gr t p) o) := by
  obtain ⟨-, -, e0, e1, -⟩ := idx_facts t
  show (V c main_v3 : S8192x128.Idx → EReal) (((cfg1.win 1).blk t).view.emb (ix2 p o)) = _
  refine congrArg _ ?_
  funext a; apply Fin.ext
  match a with
  | ⟨0, _⟩ => show win1_1.index t (0 : Fin 2) * 1024 + 1 * p.val = 1024 * (t.val / 16) + p.val; omega
  | ⟨1, _⟩ => show win1_1.index t (1 : Fin 2) * 128 + 1 * o.val = o.val; omega

theorem blk2_read (c : Dev nD) (t : Fin cfg1.N) (kk q : Fin 1024) :
    (blk V c 2 t : S1024x1024.Idx → EReal) (ix2 kk q) = (V c main_v7 : S4096x4096.Idx → EReal) (ix2 (blkK (gk t) kk) (gn t q)) := by
  obtain ⟨-, -, -, -, e0, e1, -⟩ := idx_facts t
  show (V c main_v7 : S4096x4096.Idx → EReal) (((cfg1.win 2).blk t).view.emb (ix2 kk q)) = _
  refine congrArg _ ?_
  funext a; apply Fin.ext
  match a with
  | ⟨0, _⟩ => show win1_2.index t (0 : Fin 2) * 1024 + 1 * kk.val = 1024 * (t.val % 4) + kk.val; omega
  | ⟨1, _⟩ => show win1_2.index t (1 : Fin 2) * 1024 + 1 * q.val = 1024 * (t.val / 4 % 4) + q.val; omega

theorem blk3_read (c : Dev nD) (t : Fin cfg1.N) (o : Fin 128) (q : Fin 1024) :
    (blk V c 3 t : S128x1024.Idx → EReal) (ix2 o q) = (V c main_v6 : S128x4096.Idx → EReal) (ix2 o (gn t q)) := by
  obtain ⟨-, -, -, -, -, -, e0, e1, -⟩ := idx_facts t
  show (V c main_v6 : S128x4096.Idx → EReal) (((cfg1.win 3).blk t).view.emb (ix2 o q)) = _
  refine congrArg _ ?_
  funext a; apply Fin.ext
  match a with
  | ⟨0, _⟩ => show win1_3.index t (0 : Fin 2) * 128 + 1 * o.val = o.val; omega
  | ⟨1, _⟩ => show win1_3.index t (1 : Fin 2) * 1024 + 1 * q.val = 1024 * (t.val / 4 % 4) + q.val; omega

theorem blk4_read (c : Dev nD) (t : Fin cfg1.N) (q : Fin 1024) :
    (blk V c 4 t : S1024.Idx → EReal) (ix1 q) = (V c main_arg5 : S4096.Idx → EReal) (ix1 (gn t q)) := by
  obtain ⟨-, -, -, -, -, -, -, -, e0, -⟩ := idx_facts t
  show (V c main_arg5 : S4096.Idx → EReal) (((cfg1.win 4).blk t).view.emb (ix1 q)) = _
  refine congrArg _ ?_
  funext a; apply Fin.ext
  match a with
  | ⟨0, _⟩ => show win1_4.index t (0 : Fin 1) * 1024 + 1 * q.val = 1024 * (t.val / 4 % 4) + q.val; omega

/-! ## The entry's accumulation over the region-entry arrays -/

/-- Entry (r, n) after block `kb`, over the arrays the region is entered with: the activations as rows, their last
    128 columns, the dequantised weight, the transposed outlier weight, the bias. -/
def ent (c : Dev nD) (r : Fin 8192) (n : Fin 4096) (kb : Nat) : EReal :=
  gacc (fun k => (V c main_v1 : S8192x4096.Idx → EReal) (ix2 r k)) (fun o => (V c main_v3 : S8192x128.Idx → EReal) (ix2 r o))
    (fun k => (V c main_v7 : S4096x4096.Idx → EReal) (ix2 k n)) (fun o => (V c main_v6 : S128x4096.Idx → EReal) (ix2 o n))
    ((V c main_arg5 : S4096.Idx → EReal) (ix1 n)) kb

/-- The array the region leaves in its output window: every entry fully accumulated. -/
def G (c : Dev nD) : S8192x4096.Idx → EReal :=
  fun j => ent V c ⟨(j 0).val, (j 0).isLt⟩ ⟨(j 1).val, (j 1).isLt⟩ 3

/-! ## The output's blocks cover its array -/

theorem mem_out (t : Fin cfg1.N) (i : S8192x4096.Idx) :
    i ∈ ((cfg1.win 5).blk t).view.set ↔ ∀ a : Fin 2, win1_5.index t a * S1024x1024.size a ≤ (i a).val ∧ (i a).val < win1_5.index t a * S1024x1024.size a + S1024x1024.size a := by
  show i ∈ ((View.whole main_v8).slice (win1_5.rect t)).set ↔ _
  rw [View.set_slice_whole, Rect.mem_set_unit]
  exact Iff.rfl

theorem out_cover (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 128 := N_1
  let t : Fin cfg1.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, -, -, -, e0, e1⟩ := idx_facts t
  refine ⟨t, (flush1_5 t).mpr (by omega), ?_⟩
  rw [mem_out]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 1024 ≤ (i 1).val ∧ (i 1).val < win1_5.index t (1 : Fin 2) * 1024 + 1024; omega

end Cert.QLin.MmVal

end
-- ==== Proof.MatmulPieces.lean ====
/-
  What the matrix-product kernel's three bodies leave, as expressions in the blocks they load.

  Every store of the kernel writes a whole buffer, and every load reads one.  So what a buffer holds after a body is
  the payload of the last store into it, a load of a buffer is its contents, and a load that follows a store into the
  same buffer is that store's payload.  Inside a group of four points the body leaves  accumulator + activation block ×
  weight block;  at the first point the accumulator it adds to is the one it has just stored,  outlier product + bias;
  at the last point the output buffer receives a copy of the accumulator.
-/
import proofs.«144596_j15461882266230_2_alg».proof.Proof.MatmulRegion
import Idealize.ShloMosaic.Lib.Pipeline.Value
import Idealize.ShloMosaic.Lib.Tactic

set_option maxRecDepth 16384

noncomputable section

namespace Cert.KernelIdeal.Mm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole rank-2 rectangle are zero. -/
theorem pieces_hz2 : (![0, 0] : Fin 2 → Nat) = fun _ => 0 := funext fun a => by fin_cases a <;> rfl
/-- The offset of a whole rank-1 rectangle is zero. -/
theorem pieces_hz1 : (![0] : Fin 1 → Nat) = fun _ => 0 := funext fun a => by fin_cases a; rfl

/-- Inside a group (`k = 1, 2`): the accumulator plus the product of the two blocks. -/
theorem accMiddle_eq (c : Dev nD) (t : Fin cfg1.N) (hf : ¬isFirst (grid1.coords t)) (hl : ¬isLast (grid1.coords t))
    (x0 x2 : Vec F S1024x1024 .bf16) (xs : Vec F S1024x1024 .f32) : accMiddle c t hf hl x0 x2 xs = k1_pay2 x0 x2 xs := by
  unfold accMiddle
  rw [View.read_writes_eq_canon _ _ _ (middle_cover c t hf hl x0 x2 xs)]
  unfold atMiddle runMiddle
  dsimp only
  rw [View.canon_unit_zero (S := S1024x1024) pieces_hz2]
  simp only [View.readAt_eq_ld, (hs_0 t).read_unread, (hs_2 t).read_unread, (Memref.isWhole_whole cc1_scratch0).read_unread,
    View.ld_unit_zero (S := S1024x1024) pieces_hz2]

/-- At the last point of a group (`k = 3`) the accumulator is left the same way. -/
theorem accLast_eq (c : Dev nD) (t : Fin cfg1.N) (hf : ¬isFirst (grid1.coords t)) (hl : isLast (grid1.coords t))
    (x0 x2 : Vec F S1024x1024 .bf16) (xs : Vec F S1024x1024 .f32) : accLast c t hf hl x0 x2 xs = k1_pay2 x0 x2 xs := by
  unfold accLast
  rw [View.read_writes_eq_canon _ _ _ (last_cover c t hf hl x0 x2 xs)]
  unfold atLast runLast
  dsimp only
  sl_unfold_words
  rw [View.canon_unit_zero (S := S1024x1024) pieces_hz2]
  simp only [View.readAt_eq_ld, (hs_0 t).read_unread, (hs_2 t).read_unread, (Memref.isWhole_whole cc1_scratch0).read_unread,
    View.ld_unit_zero (S := S1024x1024) pieces_hz2]

/-- … and the output buffer receives what the accumulator was just left at. -/
theorem outLast_eq (c : Dev nD) (t : Fin cfg1.N) (hf : ¬isFirst (grid1.coords t)) (hl : isLast (grid1.coords t))
    (x0 x2 : Vec F S1024x1024 .bf16) (xs : Vec F S1024x1024 .f32) : outLast c t hf hl x0 x2 xs = k1_pay2 x0 x2 xs := by
  unfold outLast
  rw [View.read_writes_eq_canon _ _ _ (last_out_cover c t hf hl x0 x2 xs)]
  unfold atLast runLast
  dsimp only
  sl_unfold_words
  rw [View.canon_unit_zero (S := S1024x1024) pieces_hz2, View.readCov_unit_zero (S := S1024x1024) _ pieces_hz2]
  simp only [View.readAt_eq_ld, (hs_0 t).read_unread, (hs_2 t).read_unread, (Memref.isWhole_whole cc1_scratch0).read_unread,
    View.ld_unit_zero (S := S1024x1024) pieces_hz2]

/-- At the first point of a group (`k = 0`): the accumulator is first stored at outlier product + bias, read back, and
    left at that plus the product of the two blocks. -/
theorem accFirst_eq (c : Dev nD) (t : Fin cfg1.N) (hf : isFirst (grid1.coords t)) (hl : ¬isLast (grid1.coords t))
    (x0 : Vec F S1024x1024 .bf16) (x1 : Vec F S1024x128 .bf16) (x2 : Vec F S1024x1024 .bf16) (x3 : Vec F S128x1024 .bf16)
    (x4 : Vec F S1024 .f32) :
    accFirst c t hf hl x0 x1 x2 x3 x4 = k1_pay2 x0 x2 (k1_pay1 x1 x3 x4) := by
  unfold accFirst
  rw [View.read_writes_eq_canon _ _ _ (first_cover c t hf hl x0 x1 x2 x3 x4)]
  unfold atFirst runFirst
  dsimp only
  sl_unfold_words
  rw [View.canon_cons_unit_zero (S := S1024x1024) pieces_hz2, View.readCov_unit_zero (S := S1024x1024) _ pieces_hz2]
  simp only [View.readAt_eq_ld, (hs_0 t).read_unread, (hs_1 t).read_unread, (hs_2 t).read_unread, (hs_3 t).read_unread,
    (hs_4 t).read_unread, View.ld_unit_zero (S := S1024x1024) pieces_hz2, View.ld_unit_zero (S := S1024x128) pieces_hz2,
    View.ld_unit_zero (S := S128x1024) pieces_hz2, View.ld_unit_zero (S := S1024) pieces_hz1]

end Cert.KernelIdeal.Mm

end
-- ==== Proof.MatmulValue.lean ====
/-
  What the matrix-product region leaves in its output array (at the exact instance): every entry (r, n) fully
  accumulated — (outlier product + bias) + block 0 + block 1 + block 2 + block 3 of the dense product —, over the
  arrays the region is entered with.  By induction over the grid positions: within a group of four positions the
  accumulator's entry (p, q) after position t is the entry's accumulation up to block t mod 4, because the first
  position of the group starts it and each later one adds its block to what the position before left; the last
  position of the group copies the accumulator into the output block, which is then written back; the output blocks
  tile the array.
-/
import proofs.«144596_j15461882266230_2_alg».proof.Proof.MatmulBlocks
import proofs.«144596_j15461882266230_2_alg».proof.Proof.MatmulPieces

noncomputable section

namespace Cert.QLin.MmVal

open Cert.KernelIdeal Cert.KernelIdeal.Gen Cert.KernelIdeal.Mm Cert.QLin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A position that is not the first of its group has the same row block and column block as the one before, and
    the next block of input features. -/
theorem gr_prev (t : Fin cfg1.N) (h0 : ¬t.val % 4 = 0) (p : Fin 1024) :
    gr ⟨t.val - 1, Nat.lt_of_le_of_lt (Nat.sub_le _ _) t.isLt⟩ p = gr t p := by
  unfold gr; apply Fin.ext; show 1024 * ((t.val - 1) / 16) + p.val = 1024 * (t.val / 16) + p.val; omega
theorem gn_prev (t : Fin cfg1.N) (h0 : ¬t.val % 4 = 0) (q : Fin 1024) :
    gn ⟨t.val - 1, Nat.lt_of_le_of_lt (Nat.sub_le _ _) t.isLt⟩ q = gn t q := by
  unfold gn; apply Fin.ext; show 1024 * ((t.val - 1) / 4 % 4) + q.val = 1024 * (t.val / 4 % 4) + q.val; omega

/-- One later step at a position's own blocks. -/
theorem step_at (c : Dev nD) (t : Fin cfg1.N) (h0 : ¬t.val % 4 = 0) (xs : Vec Ideal S1024x1024 .f32) (p q : Fin 1024)
    (hs : xs (ix2 p q) = ent V c (gr t p) (gn t q) (t.val % 4 - 1)) :
    k1_pay2 (F := Ideal) (blk V c 0 t) (blk V c 2 t) xs (ix2 p q) = ent V c (gr t p) (gn t q) (t.val % 4) := by
  have hlt : t.val % 4 < 4 := Nat.mod_lt _ (by decide)
  obtain ⟨kb, hkb⟩ : ∃ kb, t.val % 4 = kb + 1 := ⟨t.val % 4 - 1, by omega⟩
  have hk4 : kb + 1 < 4 := by omega
  have hgk : gk t = ⟨kb + 1, hk4⟩ := Fin.ext hkb
  have hs' : xs (ix2 p q) = ent V c (gr t p) (gn t q) kb := by
    rw [hs]; congr 1; omega
  rw [hkb]
  unfold ent at hs' ⊢
  exact step_val (blk V c 0 t) (blk V c 2 t) xs p q
    (fun k => (V c main_v1 : S8192x4096.Idx → EReal) (ix2 (gr t p) k)) (fun o => (V c main_v3 : S8192x128.Idx → EReal) (ix2 (gr t p) o))
    (fun k => (V c main_v7 : S4096x4096.Idx → EReal) (ix2 k (gn t q))) (fun o => (V c main_v6 : S128x4096.Idx → EReal) (ix2 o (gn t q)))
    ((V c main_arg5 : S4096.Idx → EReal) (ix1 (gn t q))) kb hk4
    (fun kk => (blk0_read V c t p kk).trans (by rw [hgk]))
    (fun kk => (blk2_read V c t kk q).trans (by rw [hgk]))
    hs'

/-- The first step of a group at a position's own blocks. -/
theorem first_at (c : Dev nD) (t : Fin cfg1.N) (h0 : t.val % 4 = 0) (p q : Fin 1024) :
    k1_pay2 (F := Ideal) (blk V c 0 t) (blk V c 2 t) (k1_pay1 (F := Ideal) (blk V c 1 t) (blk V c 3 t) (blk V c 4 t)) (ix2 p q)
      = ent V c (gr t p) (gn t q) 0 := by
  have hgk : gk t = 0 := Fin.ext h0
  have a0 : ∀ kk : Fin 1024, (blk V c 0 t : S1024x1024.Idx → EReal) (ix2 p kk)
      = (fun k => (V c main_v1 : S8192x4096.Idx → EReal) (ix2 (gr t p) k)) (blkK 0 kk) :=
    fun kk => (blk0_read V c t p kk).trans (by rw [hgk])
  have a1 := fun o => blk1_read V c t p o
  have a2 : ∀ kk : Fin 1024, (blk V c 2 t : S1024x1024.Idx → EReal) (ix2 kk q)
      = (fun k => (V c main_v7 : S4096x4096.Idx → EReal) (ix2 k (gn t q))) (blkK 0 kk) :=
    fun kk => (blk2_read V c t kk q).trans (by rw [hgk])
  have a3 := fun o => blk3_read V c t o q
  have a4 := blk4_read V c t q
  unfold ent
  exact first_val (blk V c 0 t) (blk V c 1 t) (blk V c 2 t) (blk V c 3 t) (blk V c 4 t) p q _ _ _ _ _ a0 a1 a2 a3 a4

/-- What the accumulator (and at the last position of a group the output buffer) holds after a position, as the
    body's arithmetic of the position's blocks and of what the position before left. -/
theorem acc_first (c : Dev nD) (t : Fin cfg1.N) (h0 : t.val % 4 = 0) :
    (outs V c t.val t.isLt).2
      = k1_pay2 (F := Ideal) (blk V c 0 t) (blk V c 2 t) (k1_pay1 (F := Ideal) (blk V c 1 t) (blk V c 3 t) (blk V c 4 t)) := by
  rw [outs_first V c t h0]
  dsimp only
  exact accFirst_eq c t _ _ (blk V c 0 t) (blk V c 1 t) (blk V c 2 t) (blk V c 3 t) (blk V c 4 t)
theorem acc_middle (c : Dev nD) (t : Fin cfg1.N) (h0 : ¬t.val % 4 = 0) (h3 : ¬t.val % 4 = 3) :
    (outs V c t.val t.isLt).2 = k1_pay2 (F := Ideal) (blk V c 0 t) (blk V c 2 t) (prevAcc V c t) := by
  rw [outs_middle V c t h0 h3]
  dsimp only
  exact accMiddle_eq c t _ _ (blk V c 0 t) (blk V c 2 t) (prevAcc V c t)
theorem acc_last (c : Dev nD) (t : Fin cfg1.N) (h0 : ¬t.val % 4 = 0) (h3 : t.val % 4 = 3) :
    (outs V c t.val t.isLt).2 = k1_pay2 (F := Ideal) (blk V c 0 t) (blk V c 2 t) (prevAcc V c t) := by
  rw [outs_last V c t h0 h3]
  dsimp only
  exact accLast_eq c t _ _ (blk V c 0 t) (blk V c 2 t) (prevAcc V c t)
theorem out_last (c : Dev nD) (t : Fin cfg1.N) (h0 : ¬t.val % 4 = 0) (h3 : t.val % 4 = 3) :
    (outs V c t.val t.isLt).1 = k1_pay2 (F := Ideal) (blk V c 0 t) (blk V c 2 t) (prevAcc V c t) := by
  rw [outs_last V c t h0 h3]
  dsimp only
  exact outLast_eq c t _ _ (blk V c 0 t) (blk V c 2 t) (prevAcc V c t)

/-- THE ACCUMULATOR after each position: entry (p, q) holds the accumulation of array entry (row, column) of the
    position up to its block. -/
theorem acc_inv (c : Dev nD) : ∀ (n : ℕ) (hn : n < cfg1.N) (p q : Fin 1024),
    (outs V c n hn).2 (ix2 p q) = ent V c (gr ⟨n, hn⟩ p) (gn ⟨n, hn⟩ q) (n % 4) := by
  intro n
  induction n with
  | zero =>
    intro hn p q
    exact (congrFun (acc_first V c ⟨0, hn⟩ rfl) (ix2 p q)).trans (first_at V c ⟨0, hn⟩ rfl p q)
  | succ n ih =>
    intro hn p q
    by_cases h0 : (n + 1) % 4 = 0
    · rw [h0]
      exact (congrFun (acc_first V c ⟨n + 1, hn⟩ h0) (ix2 p q)).trans (first_at V c ⟨n + 1, hn⟩ h0 p q)
    · have hprev : prevAcc V c ⟨n + 1, hn⟩ (ix2 p q)
          = ent V c (gr ⟨n + 1, hn⟩ p) (gn ⟨n + 1, hn⟩ q) ((n + 1) % 4 - 1) := by
        show (outs V c n _).2 (ix2 p q) = _
        rw [ih (Nat.lt_of_succ_lt hn) p q]
        have e1 := gr_prev ⟨n + 1, hn⟩ h0 p
        have e2 := gn_prev ⟨n + 1, hn⟩ h0 q
        simp only [Nat.add_sub_cancel] at e1 e2
        rw [e1, e2]
        congr 1; omega
      by_cases h3 : (n + 1) % 4 = 3
      · exact (congrFun (acc_last V c ⟨n + 1, hn⟩ h0 h3) (ix2 p q)).trans (step_at V c ⟨n + 1, hn⟩ h0 _ p q hprev)
      · exact (congrFun (acc_middle V c ⟨n + 1, hn⟩ h0 h3) (ix2 p q)).trans (step_at V c ⟨n + 1, hn⟩ h0 _ p q hprev)

/-- At the last position of a group, entry (p, q) of what the body leaves in the output buffer is the fully
    accumulated entry of the array at the place the write-back puts it. -/
theorem out_entry (c : Dev nD) (t : Fin cfg1.N) (h3 : t.val % 4 = 3) (p q : Fin 1024) :
    k1_pay2 (F := Ideal) (blk V c 0 t) (blk V c 2 t) (prevAcc V c t) (ix2 p q)
      = G V c (((cfg1.win 5).blk t).view.emb (ix2 p q)) := by
  have h0 : ¬t.val % 4 = 0 := by omega
  obtain ⟨-, -, -, -, -, -, -, -, -, e0, e1⟩ := idx_facts t
  have hprev : prevAcc V c t (ix2 p q) = ent V c (gr t p) (gn t q) (t.val % 4 - 1) := by
    show (outs V c (t.val - 1) _).2 (ix2 p q) = _
    rw [acc_inv V c (t.val - 1) _ p q, gr_prev t h0 p, gn_prev t h0 q]
    congr 1; omega
  refine (step_at V c t h0 _ p q hprev).trans ?_
  rw [h3]
  unfold G
  congr 1
  · apply Fin.ext
    show 1024 * (t.val / 16) + p.val = win1_5.index t (0 : Fin 2) * 1024 + 1 * p.val
    omega
  · apply Fin.ext
    show 1024 * (t.val / 4 % 4) + q.val = win1_5.index t (1 : Fin 2) * 1024 + 1 * q.val
    omega

/-- What a writing-back position writes back is its block of `G`. -/
theorem flushed_eq (c : Dev nD) (t : Fin cfg1.N) (hf : (cfg1.win 5).flush t = true) :
    (dat V c).flushed 5 t = ((cfg1.win 5).blk t).view.read (Elt Ideal) (G V c) := by
  have h3 : t.val % 4 = 3 := (flush1_5 t).mp hf
  have h0 : ¬t.val % 4 = 0 := by omega
  show (cfg1.win 5).cut (grid1.coords t) ((dat V c).after 5 t) = _
  rw [after_5, out_last V c t h0 h3]
  funext y
  show k1_pay2 (F := Ideal) (blk V c 0 t) (blk V c 2 t) (prevAcc V c t) (ix2 ⟨(y 0).val, (y 0).isLt⟩ ⟨(y 1).val, (y 1).isLt⟩)
      = G V c (((cfg1.win 5).blk t).view.emb (ix2 ⟨(y 0).val, (y 0).isLt⟩ ⟨(y 1).val, (y 1).isLt⟩))
  exact out_entry V c t h3 _ _

/-- THE OUTPUT ARRAY after the region. -/
theorem matmul_final (c : Dev nD) : ((dat V c).arrAt 5 cfg1.N : S8192x4096.Idx → EReal) = G V c :=
  (dat V c).arrAt_eq_of_cover 5 (G V c) (fun t hf => flushed_eq V c t hf) out_cover

end Cert.QLin.MmVal

end
-- ==== Proof.DequantValue.lean ====
/-
  The first kernel region's result, from blocks to the whole array, over the extended reals.

  The grid has 4 × 4 points; point `t` is block `(bk, bn) = (t / 4, t % 4)`.  It is handed the 1024 × 1024 block
  `(bk, bn)` of the transposed integer weight and the 8 × 1024 block `(bk, bn)` of the scale and zero tables, and writes
  back the 1024 × 1024 block `(bk, bn)` of its result.  Element `(p, q)` of what it writes is the integer at
  `(1024 bk + p, 1024 bn + q)` times the scale, plus the zero, of row `p / 128` of the table block, which is row
  `8 bk + p / 128 = (1024 bk + p) / 128` of the table: the group of input feature `1024 bk + p`.  So every point writes
  its block of ONE array, the dequantised weight `wdT`, and the sixteen blocks tile the 4096 × 4096 array.
-/
import proofs.«144596_j15461882266230_2_alg».proof.Proof.DequantRegion
import proofs.«144596_j15461882266230_2_alg».proof.Proof.PayIdx
import proofs.«144596_j15461882266230_2_alg».proof.Proof.Spec
import Idealize.ShloMosaic.Lib.Pipeline.Value
import Idealize.ShloMosaic.Lib.ValueIdx

set_option maxRecDepth 16384

noncomputable section

namespace Cert.QLin.DqVal

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The four windows' block indices at point `t`, decided over the sixteen points: all are `(t / 4, t % 4)`. -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4 :=
  (by decide +kernel : ∀ t : Fin grid0.N, _)

/-- What the result array ends holding: the dequantised weight of the transposed integer weight, the scales and the
    zeros as the region finds them. -/
abbrev G (c : Dev nD) : S4096x4096.Idx → EReal :=
  fun j => wdT (V c main_v4) (V c main_arg2) (V c main_arg3) (j 0) (j 1)

/-- Element `(p, q)` of the integer weight's block `(bk, bn)` is the array's element `(1024 bk + p, 1024 bn + q)`. -/
theorem blk0_apply (c : Dev nD) (t : Fin cfg0.N) (bk bn : Fin 4) (h0 : win0_0.index t (0 : Fin 2) = bk.val)
    (h1 : win0_0.index t (1 : Fin 2) = bn.val) (p q : Fin 1024) :
    (Dq.blk V c 0 t : Vec Ideal S1024x1024 .i32) (ix2 p q)
      = (V c main_v4 : S4096x4096.Idx → BitVec 32) (ix2 (blkK bk p) (blkK bn q)) := by
  unfold Dq.blk
  rw [View.read_apply]
  show V c main_v4 _ = V c main_v4 _
  congr 1
  funext a
  apply Fin.ext
  match a with
  | ⟨0, _⟩ => show win0_0.index t (0 : Fin 2) * 1024 + 1 * p.val = 1024 * bk.val + p.val; rw [h0]; omega
  | ⟨1, _⟩ => show win0_0.index t (1 : Fin 2) * 1024 + 1 * q.val = 1024 * bn.val + q.val; rw [h1]; omega

/-- Row `p / 128` of the scale table's block `(bk, bn)` is the table's row `8 bk + p / 128`, the group of input feature
    `1024 bk + p`. -/
theorem blk1_apply (c : Dev nD) (t : Fin cfg0.N) (bk bn : Fin 4) (h0 : win0_1.index t (0 : Fin 2) = bk.val)
    (h1 : win0_1.index t (1 : Fin 2) = bn.val) (p q : Fin 1024) :
    (Dq.blk V c 1 t : Vec Ideal S8x1024 .f32) (ix2 (⟨p.val / 128, by have := p.isLt; omega⟩ : Fin 8) q)
      = (V c main_arg2 : S32x4096.Idx → EReal) (ix2 (grp (blkK bk p)) (blkK bn q)) := by
  unfold Dq.blk
  rw [View.read_apply]
  show V c main_arg2 _ = V c main_arg2 _
  congr 1
  funext a
  apply Fin.ext
  have hp := p.isLt
  match a with
  | ⟨0, _⟩ => show win0_1.index t (0 : Fin 2) * 8 + 1 * (p.val / 128) = (1024 * bk.val + p.val) / 128; rw [h0]; omega
  | ⟨1, _⟩ => show win0_1.index t (1 : Fin 2) * 1024 + 1 * q.val = 1024 * bn.val + q.val; rw [h1]; omega

/-- The same reading of the zero table's block. -/
theorem blk2_apply (c : Dev nD) (t : Fin cfg0.N) (bk bn : Fin 4) (h0 : win0_2.index t (0 : Fin 2) = bk.val)
    (h1 : win0_2.index t (1 : Fin 2) = bn.val) (p q : Fin 1024) :
    (Dq.blk V c 2 t : Vec Ideal S8x1024 .f32) (ix2 (⟨p.val / 128, by have := p.isLt; omega⟩ : Fin 8) q)
      = (V c main_arg3 : S32x4096.Idx → EReal) (ix2 (grp (blkK bk p)) (blkK bn q)) := by
  unfold Dq.blk
  rw [View.read_apply]
  show V c main_arg3 _ = V c main_arg3 _
  congr 1
  funext a
  apply Fin.ext
  have hp := p.isLt
  match a with
  | ⟨0, _⟩ => show win0_2.index t (0 : Fin 2) * 8 + 1 * (p.val / 128) = (1024 * bk.val + p.val) / 128; rw [h0]; omega
  | ⟨1, _⟩ => show win0_2.index t (1 : Fin 2) * 1024 + 1 * q.val = 1024 * bn.val + q.val; rw [h1]; omega

/-- Element `(p, q)` of the result's block `(bk, bn)` sits in the array at `(1024 bk + p, 1024 bn + q)`. -/
theorem out_emb (t : Fin cfg0.N) (bk bn : Fin 4) (h0 : win0_3.index t (0 : Fin 2) = bk.val)
    (h1 : win0_3.index t (1 : Fin 2) = bn.val) (p q : Fin 1024) :
    (((cfg0.win 3).blk t).view.emb (ix2 p q) : S4096x4096.Idx) = ix2 (blkK bk p) (blkK bn q) := by
  funext a
  apply Fin.ext
  match a with
  | ⟨0, _⟩ => show win0_3.index t (0 : Fin 2) * 1024 + 1 * p.val = 1024 * bk.val + p.val; rw [h0]; omega
  | ⟨1, _⟩ => show win0_3.index t (1 : Fin 2) * 1024 + 1 * q.val = 1024 * bn.val + q.val; rw [h1]; omega

/-- What point `t` writes back is block `t` of the dequantised weight. -/
theorem flushed_eq (c : Dev nD) (t : Fin cfg0.N) :
    (Dq.dat V c).flushed 3 t = ((cfg0.win 3).blk t).view.read (Elt Ideal) (G V c) := by
  obtain ⟨a0, a1, b0, b1, c0, c1, d0, d1⟩ := idx_facts t
  have ht : t.val < 16 := lt_of_lt_of_eq t.isLt (show cfg0.N = 16 from N_0)
  obtain ⟨bk, hbk⟩ : ∃ bk : Fin 4, bk.val = t.val / 4 := ⟨⟨t.val / 4, by omega⟩, rfl⟩
  obtain ⟨bn, hbn⟩ : ∃ bn : Fin 4, bn.val = t.val % 4 := ⟨⟨t.val % 4, by omega⟩, rfl⟩
  rw [← hbk] at a0 b0 c0 d0
  rw [← hbn] at a1 b1 c1 d1
  show (cfg0.win 3).cut (grid0.coords t) ((Dq.dat V c).after 3 t) = _
  rw [Dq.after_3]
  unfold Dq.stored
  rw [View.canon_unit_zero hz]
  simp only [View.ld_unit_zero (S := S1024x1024) hz, View.ld_unit_zero (S := S8x1024) hz]
  funext y
  obtain ⟨p, q, rfl⟩ : ∃ (p q : Fin 1024), y = ix2 p q := ⟨y 0, y 1, eq_ix2 (n0 := 1024) (n1 := 1024) y⟩
  show k0_pay1 (F := Ideal) (Dq.blk V c 0 t) (Dq.blk V c 1 t) (Dq.blk V c 2 t) (ix2 p q)
    = G V c (((cfg0.win 3).blk t).view.emb (ix2 p q))
  refine (Pay.k0_pay1_apply _ _ _ p q).trans ?_
  rw [blk0_apply V c t bk bn a0 a1 p q, blk1_apply V c t bk bn b0 b1 p q, blk2_apply V c t bk bn c0 c1 p q,
    out_emb t bk bn d0 d1 p q]
  rfl

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- The sixteen blocks tile the array: `(k, n)` is in the block of point `4 (k / 1024) + n / 1024`. -/
theorem cover (i : S4096x4096.Idx) :
    ∃ t : Fin cfg0.N, (cfg0.win 3).flush t = true ∧ i ∈ ((cfg0.win 3).blk t).view.set := by
  have hN : cfg0.N = 16 := N_0
  have hi0 : (i 0).val < 4096 := (i 0).isLt
  have hi1 : (i 1).val < 4096 := (i 1).isLt
  obtain ⟨t, ht⟩ : ∃ t : Fin cfg0.N, t.val = 4 * ((i 0).val / 1024) + (i 1).val / 1024 :=
    ⟨⟨4 * ((i 0).val / 1024) + (i 1).val / 1024, by rw [hN]; omega⟩, rfl⟩
  obtain ⟨-, -, -, -, -, -, d0, d1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [d0, ht]; omega
  | ⟨1, _⟩ =>
    show win0_3.index t (1 : Fin 2) * 1024 ≤ (i 1).val ∧ (i 1).val < win0_3.index t (1 : Fin 2) * 1024 + 1024
    rw [d1, ht]; omega

/-- The result array after the region: the dequantised weight, everywhere. -/
theorem dequant_final (c : Dev nD) :
    ((Dq.dat (F := Ideal) V c).arrAt 3 cfg0.N : S4096x4096.Idx → EReal)
      = fun j => wdT (V c main_v4) (V c main_arg2) (V c main_arg3) (j 0) (j 1) :=
  (Dq.dat V c).arrAt_eq_of_cover 3 (G V c) (fun t _ => flushed_eq V c t) cover

end Cert.QLin.DqVal

end
-- ==== Proof.HostIdx.lean ====
/-
  The host operations around the two kernels, read one element at a time over the extended reals.

  Before the kernels the activations `[4, 2048, 4096]` are read as a matrix `[8192, 4096]` (row `r = 2048 · b + s`) and
  their last 128 columns are cut out; the integer weight and the outlier weight are transposed; the scales, the zeros
  and the bias are passed on as they are.  After the kernels the result matrix `[8192, 4096]` is read back as
  `[4, 2048, 4096]`.  A change of format is the identity on the extended reals, so each array written by these
  operations is, at an index, one element of an argument.
-/
import proofs.«144596_j15461882266230_2_alg».proof.Proof.Spec
import proofs.«144596_j15461882266230_2_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run

noncomputable section

namespace Cert.QLin.Pay

open Cert.KernelIdeal Cert.KernelIdeal.Gen Idealize.ShloMosaic Idealize.ShloMosaic.ValueIdx

/-! ## The host operations around the kernels, read at an index

Before the kernels: the activations are read as a matrix `[8192, 4096]` (row `r = 2048 · b + s`), and their last 128
columns are cut out; the integer weight and the outlier weight are transposed.  After them: the result matrix is read
back as `[4, 2048, 4096]`.  The format changes in between are the identity on the extended reals. -/

section Host

variable (V : Valuation τ sig (Elt Ideal))

/-- The activations as a matrix, as a term of the argument. -/
theorem after_v1_eq :
    (StableHlo.after (hostOps0 (F := Ideal)) V (Proc.devRef .tc main_v1) : S8192x4096.Idx → EReal)
      = truncf (F := Ideal) .bf16 (shapeCast S8192x4096 (V (Proc.devRef .tc main_arg0) : S4x2048x4096.Idx → EReal)
          shapeCasts_S4x2048x4096_S8192x4096) bitsLt_bf16_f32 := by
  after_results <;> rfl

/-- Row `r` of the activations' matrix is row `r % 2048` of batch `r / 2048`. -/
theorem after_v1 (r : Fin 8192) (k : Fin 4096) :
    (StableHlo.after (hostOps0 (F := Ideal)) V (Proc.devRef .tc main_v1) : S8192x4096.Idx → EReal) (ix2 r k)
      = (V (Proc.devRef .tc main_arg0) : S4x2048x4096.Idx → EReal)
          (ix3 (⟨r.val / 2048, by have := r.isLt; omega⟩ : Fin 4) (⟨r.val % 2048, Nat.mod_lt _ (by decide)⟩ : Fin 2048) k) := by
  have hr := r.isLt
  have hk := k.isLt
  rw [after_v1_eq]
  refine (truncf_apply _ bitsLt_bf16_f32 _).trans ?_
  exact shapeCast_apply _ shapeCasts_S4x2048x4096_S8192x4096 (ix2 r k) _ (by
    rw [Shape.rowMajor_val_three, Shape.rowMajor_val_two]
    show (r.val / 2048 * 2048 + r.val % 2048) * 4096 + k.val = r.val * 4096 + k.val
    omega)

/-- The last 128 columns of the activations' matrix, as a term of the argument. -/
theorem after_v3_eq :
    (StableHlo.after (hostOps0 (F := Ideal)) V (Proc.devRef .tc main_v3) : S8192x128.Idx → EReal)
      = truncf (F := Ideal) .bf16 (extractStridedSlice S8192x128 ![0, 3968]
          (shapeCast S8192x4096 (V (Proc.devRef .tc main_arg0) : S4x2048x4096.Idx → EReal)
            shapeCasts_S4x2048x4096_S8192x4096) slices_S8192x4096_S8192x128_0_3968) bitsLt_bf16_f32 := by
  after_results <;> rfl

/-- Column `o` of the cut is input feature `3968 + o`. -/
theorem after_v3 (r : Fin 8192) (o : Fin 128) :
    (StableHlo.after (hostOps0 (F := Ideal)) V (Proc.devRef .tc main_v3) : S8192x128.Idx → EReal) (ix2 r o)
      = (V (Proc.devRef .tc main_arg0) : S4x2048x4096.Idx → EReal)
          (ix3 (⟨r.val / 2048, by have := r.isLt; omega⟩ : Fin 4) (⟨r.val % 2048, Nat.mod_lt _ (by decide)⟩ : Fin 2048)
            (Cert.QLin.tailK o)) := by
  have hr := r.isLt
  have ho := o.isLt
  rw [after_v3_eq]
  refine (truncf_apply _ bitsLt_bf16_f32 _).trans ?_
  refine (slice2_axis1_apply 3968 _ slices_S8192x4096_S8192x128_0_3968 r o (Cert.QLin.tailK o) rfl).trans ?_
  exact shapeCast_apply _ shapeCasts_S4x2048x4096_S8192x4096 (ix2 r (Cert.QLin.tailK o)) _ (by
    rw [Shape.rowMajor_val_three, Shape.rowMajor_val_two]
    show (r.val / 2048 * 2048 + r.val % 2048) * 4096 + (3968 + o.val) = r.val * 4096 + (3968 + o.val)
    omega)

/-- The integer weight transposed, as a term of the argument. -/
theorem after_v4_eq :
    (StableHlo.after (hostOps0 (F := Ideal)) V (Proc.devRef .tc main_v4) : S4096x4096.Idx → BitVec 32)
      = transpose S4096x4096 [1, 0] (V (Proc.devRef .tc main_arg1) : S4096x4096.Idx → BitVec 32)
          transposes_S4096x4096_S4096x4096_1_0 := by
  after_results <;> rfl

/-- The transposed integer weight at `(k, n)` is the weight at `(n, k)`. -/
theorem after_v4 (k n : Fin 4096) :
    (StableHlo.after (hostOps0 (F := Ideal)) V (Proc.devRef .tc main_v4) : S4096x4096.Idx → BitVec 32) (ix2 k n)
      = (V (Proc.devRef .tc main_arg1) : S4096x4096.Idx → BitVec 32) (ix2 n k) := by
  rw [after_v4_eq]
  exact transpose_ix2_apply _ transposes_S4096x4096_S4096x4096_1_0 k n

/-- The outlier weight transposed, as a term of the argument. -/
theorem after_v6_eq :
    (StableHlo.after (hostOps0 (F := Ideal)) V (Proc.devRef .tc main_v6) : S128x4096.Idx → EReal)
      = truncf (F := Ideal) .bf16 (transpose S128x4096 [1, 0] (V (Proc.devRef .tc main_arg4) : S4096x128.Idx → EReal)
          transposes_S4096x128_S128x4096_1_0) bitsLt_bf16_f32 := by
  after_results <;> rfl

/-- The transposed outlier weight at `(o, n)` is the outlier weight at `(n, o)`. -/
theorem after_v6 (o : Fin 128) (n : Fin 4096) :
    (StableHlo.after (hostOps0 (F := Ideal)) V (Proc.devRef .tc main_v6) : S128x4096.Idx → EReal) (ix2 o n)
      = (V (Proc.devRef .tc main_arg4) : S4096x128.Idx → EReal) (ix2 n o) := by
  rw [after_v6_eq]
  refine (truncf_apply _ bitsLt_bf16_f32 _).trans ?_
  exact transpose_ix2_apply _ transposes_S4096x128_S128x4096_1_0 o n

/-- The scales are not written by the host operations. -/
theorem after_arg2 :
    StableHlo.after (hostOps0 (F := Ideal)) V (Proc.devRef .tc main_arg2) = V (Proc.devRef .tc main_arg2) := by
  after_results <;> rfl

/-- Nor are the zeros. -/
theorem after_arg3 :
    StableHlo.after (hostOps0 (F := Ideal)) V (Proc.devRef .tc main_arg3) = V (Proc.devRef .tc main_arg3) := by
  after_results <;> rfl

/-- Nor is the bias. -/
theorem after_arg5 :
    StableHlo.after (hostOps0 (F := Ideal)) V (Proc.devRef .tc main_arg5) = V (Proc.devRef .tc main_arg5) := by
  after_results <;> rfl

/-- The result read back as `[4, 2048, 4096]`, as a term of the result matrix. -/
theorem after_v9_eq :
    (StableHlo.after (hostOps2 (F := Ideal)) V (Proc.devRef .tc main_v9) : S4x2048x4096.Idx → EReal)
      = shapeCast S4x2048x4096 (V (Proc.devRef .tc main_v8) : S8192x4096.Idx → EReal)
          shapeCasts_S8192x4096_S4x2048x4096 := by
  after_results <;> rfl

/-- Element `(b, s, n)` of the result is row `2048 · b + s` of the result matrix. -/
theorem after_v9 (b : Fin 4) (s : Fin 2048) (n : Fin 4096) :
    (StableHlo.after (hostOps2 (F := Ideal)) V (Proc.devRef .tc main_v9) : S4x2048x4096.Idx → EReal) (ix3 b s n)
      = (V (Proc.devRef .tc main_v8) : S8192x4096.Idx → EReal) (ix2 (Cert.QLin.rowOf b s) n) := by
  have hb := b.isLt
  have hs := s.isLt
  have hn := n.isLt
  rw [after_v9_eq]
  exact shapeCast_apply _ shapeCasts_S8192x4096_S4x2048x4096 (ix3 b s n) (ix2 (Cert.QLin.rowOf b s) n) (by
    rw [Shape.rowMajor_val_two, Shape.rowMajor_val_three]
    show (2048 * b.val + s.val) * 4096 + n.val = (b.val * 2048 + s.val) * 4096 + n.val
    omega)

end Host

end Cert.QLin.Pay

end
-- ==== Proof.Law.lean ====
/-
  The algebraic law: the block-accumulated arrangement of the quantised linear layer equals the whole-product
  arrangement.  Three facts are used.  Row `2048 · b + s` of the matrix reading of the activations is row
  `(b, s)` of the array (quotient and remainder by 2048).  A sum over 4096 input features is the sum over four
  blocks of 1024 (the bijection `(kb, kk) ↦ 1024 · kb + kk`).  Addition on the extended reals is commutative and
  associative, so the order in which the six summands are added does not matter; no finiteness is needed.
-/
import proofs.«144596_j15461882266230_2_alg».proof.Proof.Spec
import Mathlib.Algebra.BigOperators.Fin
import Mathlib.Tactic.Abel
import Mathlib.Logic.Equiv.Fin.Basic

noncomputable section

namespace Cert.QLin

open Idealize.ShloMosaic Idealize.ShloMosaic.ValueIdx

/-- Row `2048 · b + s` of the matrix reading is row `(b, s)` of the array. -/
theorem xrow_rowOf (X : SX.Idx → EReal) (b : Fin 4) (s : Fin 2048) (k : Fin 4096) :
    xrow X (rowOf b s) k = X (ix3 b s k) := by
  have hb : (⟨(rowOf b s).val / 2048, by have := (rowOf b s).isLt; omega⟩ : Fin 4) = b := by
    apply Fin.ext
    have := s.isLt
    show (2048 * b.val + s.val) / 2048 = b.val
    omega
  have hs : (⟨(rowOf b s).val % 2048, Nat.mod_lt _ (by decide)⟩ : Fin 2048) = s := by
    apply Fin.ext
    have := s.isLt
    show (2048 * b.val + s.val) % 2048 = s.val
    omega
  show X (ix3 (⟨(rowOf b s).val / 2048, _⟩ : Fin 4) (⟨(rowOf b s).val % 2048, _⟩ : Fin 2048) k) = _
  rw [hb, hs]

/-- A sum over 4096 input features is the sum over four blocks of 1024. -/
theorem sum_blocks (f : Fin 4096 → EReal) :
    ∑ k : Fin 4096, f k = ∑ kb : Fin 4, ∑ kk : Fin 1024, f (blkK kb kk) := by
  rw [← Fintype.sum_prod_type']
  refine (Fintype.sum_equiv (finProdFinEquiv (m := 4) (n := 1024)) (fun x => f (blkK x.1 x.2)) f ?_).symm
  rintro ⟨kb, kk⟩
  congr 1
  apply Fin.ext
  show 1024 * kb.val + kk.val = kk.val + 1024 * kb.val
  omega

/-- The block-accumulated arrangement equals the whole-product arrangement. -/
theorem law (X : SX.Idx → EReal) (Q : SQ.Idx → BitVec 32) (Sc Z : SG.Idx → EReal) (OW : SO.Idx → EReal)
    (B : SB.Idx → EReal) (b : Fin 4) (s : Fin 2048) (n : Fin 4096) :
    yker X Q Sc Z OW B (rowOf b s) n = yref X Q Sc Z OW B b s n := by
  have hout : outl X OW (rowOf b s) n = ∑ o : Fin 128, X (ix3 b s (tailK o)) * OW (ix2 n o) := by
    unfold outl
    exact Finset.sum_congr rfl (fun o _ => by rw [xrow_rowOf])
  have hpart : ∀ kb : Fin 4, part X Q Sc Z kb (rowOf b s) n
      = ∑ kk : Fin 1024, X (ix3 b s (blkK kb kk)) * wd Q Sc Z (blkK kb kk) n := by
    intro kb
    unfold part
    exact Finset.sum_congr rfl (fun kk _ => by rw [xrow_rowOf])
  have hdense : ∑ k : Fin 4096, X (ix3 b s k) * wd Q Sc Z k n
      = part X Q Sc Z 0 (rowOf b s) n + part X Q Sc Z 1 (rowOf b s) n
        + part X Q Sc Z 2 (rowOf b s) n + part X Q Sc Z 3 (rowOf b s) n := by
    rw [sum_blocks (fun k => X (ix3 b s k) * wd Q Sc Z k n), Fin.sum_univ_four,
      hpart 0, hpart 1, hpart 2, hpart 3]
  have hacc : yker X Q Sc Z OW B (rowOf b s) n
      = ((((outl X OW (rowOf b s) n + B (ix1 n)) + part X Q Sc Z 0 (rowOf b s) n)
          + part X Q Sc Z 1 (rowOf b s) n) + part X Q Sc Z 2 (rowOf b s) n)
          + part X Q Sc Z 3 (rowOf b s) n := by
    simp only [yker, accUpTo]
    rfl
  rw [hacc]
  unfold yref
  rw [hdense, ← hout]
  abel

end Cert.QLin

end
-- ==== Proof.KernelValue.lean ====
/-
  The kernel program's result, read (at the exact instance).  The closing reshape reads entry (b, s, n) of the result
  at row 2048·b + s, column n of the matrix product's output; that entry is fully accumulated over the arrays the
  second region is entered with; those are the host operations' reshaped, sliced and transposed copies of the
  arguments, and the first region's dequantised weight; so the entry is the block-accumulated arrangement of the
  layer's sum over the ARGUMENT arrays, which equals the whole-product arrangement because addition of extended reals
  is commutative and associative.
-/
import proofs.«144596_j15461882266230_2_alg».proof.Proof.WholeRun
import proofs.«144596_j15461882266230_2_alg».proof.Proof.MatmulValue
import proofs.«144596_j15461882266230_2_alg».proof.Proof.DequantValue
import proofs.«144596_j15461882266230_2_alg».proof.Proof.HostIdx
import proofs.«144596_j15461882266230_2_alg».proof.Proof.Law

noncomputable section

namespace Cert.QLin.Final

open Cert.KernelIdeal Cert.QLin
open Idealize.ShloMosaic Idealize.ShloMosaic.TcCoe Idealize.ShloMosaic.ValueIdx Idealize.SL.Sem

/-- The block accumulation depends on its five pieces of data only through their values. -/
theorem gacc_congr {xr xr' : Fin 4096 → EReal} {xo xo' : Fin 128 → EReal} {w w' : Fin 4096 → EReal} {ow ow' : Fin 128 → EReal} {b b' : EReal}
    (h1 : ∀ k, xr k = xr' k) (h2 : ∀ o, xo o = xo' o) (h3 : ∀ k, w k = w' k) (h4 : ∀ o, ow o = ow' o) (h5 : b = b') (kb : Nat) :
    gacc xr xo w ow b kb = gacc xr' xo' w' ow' b' kb := by
  obtain rfl : xr = xr' := funext h1
  obtain rfl : xo = xo' := funext h2
  obtain rfl : w = w' := funext h3
  obtain rfl : ow = ow' := funext h4
  subst h5; rfl

variable (m : (ℓ : Loc nD τ sig) → Buf (Elt Ideal) ℓ)

theorem G_at (V : (c : Dev nD) → (b : Ref sig .tc) → Buf (Elt Ideal) ((c : Thread nD τ).loc b)) (c : Dev nD) (r : Fin 8192) (n : Fin 4096) :
    MmVal.G V c (ix2 r n) = MmVal.ent V c r n 3 := rfl

/-- The matrix product's output after both regions, at an entry. -/
theorem v8_at (c : Dev nD) (r : Fin 8192) (n : Fin 4096) :
    (Whole.W3 m c (Proc.devRef .tc main_v8) : S8192x4096.Idx → EReal) (ix2 r n) = MmVal.ent (Whole.V2 m) c r n 3 :=
  (congrFun ((Whole.W3_arr m c 5).trans (MmVal.matmul_final (Whole.V2 m) c)) (ix2 r n)).trans (G_at (Whole.V2 m) c r n)

/-- The arrays the second region is entered with, over the arguments. -/
theorem x_at (c : Dev nD) (r : Fin 8192) (k : Fin 4096) :
    (Whole.V2 m c main_v1 : S8192x4096.Idx → EReal) (ix2 r k) = xrow (m ((c.tc : Thread nD τ).loc main_arg0)) r k :=
  (congrFun (Whole.W2_of_ne m c main_v1 (by decide)) (ix2 r k)).trans (Pay.after_v1 (Whole.W0 m c) r k)
theorem xo_at (c : Dev nD) (r : Fin 8192) (o : Fin 128) :
    (Whole.V2 m c main_v3 : S8192x128.Idx → EReal) (ix2 r o) = xrow (m ((c.tc : Thread nD τ).loc main_arg0)) r (tailK o) :=
  (congrFun (Whole.W2_of_ne m c main_v3 (by decide)) (ix2 r o)).trans (Pay.after_v3 (Whole.W0 m c) r o)
theorem ow_at (c : Dev nD) (o : Fin 128) (n : Fin 4096) :
    (Whole.V2 m c main_v6 : S128x4096.Idx → EReal) (ix2 o n) = ((m ((c.tc : Thread nD τ).loc main_arg4)) : S4096x128.Idx → EReal) (ix2 n o) :=
  (congrFun (Whole.W2_of_ne m c main_v6 (by decide)) (ix2 o n)).trans (Pay.after_v6 (Whole.W0 m c) o n)
theorem b_at (c : Dev nD) (n : Fin 4096) :
    (Whole.V2 m c main_arg5 : S4096.Idx → EReal) (ix1 n) = ((m ((c.tc : Thread nD τ).loc main_arg5)) : S4096.Idx → EReal) (ix1 n) :=
  (congrFun (Whole.W2_of_ne m c main_arg5 (by decide)) (ix1 n)).trans (congrFun (Pay.after_arg5 (Whole.W0 m c)) (ix1 n))
theorem w_at (c : Dev nD) (k n : Fin 4096) :
    (Whole.V2 m c main_v7 : S4096x4096.Idx → EReal) (ix2 k n) = wd (m ((c.tc : Thread nD τ).loc main_arg1)) (m ((c.tc : Thread nD τ).loc main_arg2)) (m ((c.tc : Thread nD τ).loc main_arg3)) k n := by
  refine (congrFun ((Whole.W2_arr m c 3).trans (DqVal.dequant_final (Whole.V1 m) c)) (ix2 k n)).trans ?_
  show wdT (Whole.V1 m c main_v4) (Whole.V1 m c main_arg2) (Whole.V1 m c main_arg3) k n = _
  rw [show (Whole.V1 m c main_arg2 : S32x4096.Idx → EReal) = (m ((c.tc : Thread nD τ).loc main_arg2)) from Pay.after_arg2 (Whole.W0 m c),
    show (Whole.V1 m c main_arg3 : S32x4096.Idx → EReal) = (m ((c.tc : Thread nD τ).loc main_arg3)) from Pay.after_arg3 (Whole.W0 m c)]
  exact (wd_eq_wdT (m ((c.tc : Thread nD τ).loc main_arg1)) (Whole.V1 m c main_v4) (fun k n => Pay.after_v4 (Whole.W0 m c) k n) _ _ k n).symm

/-- The result buffer after the whole program is the layer's result of the argument arrays. -/
theorem final_v9 (c : Dev nD) :
    (Whole.W4 m c (Proc.devRef .tc main_v9) : S4x2048x4096.Idx → EReal)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  funext i
  obtain ⟨b, s, n, rfl⟩ : ∃ (b : Fin 4) (s : Fin 2048) (n : Fin 4096), i = ix3 b s n := ⟨i 0, i 1, i 2, eq_ix3 i⟩
  refine (Pay.after_v9 (Whole.W3 m c) b s n).trans ?_
  refine (v8_at m c (rowOf b s) n).trans ?_
  refine (gacc_congr (fun k => x_at m c (rowOf b s) k) (fun o => xo_at m c (rowOf b s) o) (fun k => w_at m c k n)
    (fun o => ow_at m c o n) (b_at m c n) 3).trans ?_
  refine (accUpTo_eq_gacc _ _ _ _ _ _ (rowOf b s) n 3).symm.trans ?_
  exact law _ _ _ _ _ _ b s n

/-- The kernel program at the exact instance: it runs, its result is the layer's result of its arguments, and its
    arguments end unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (Whole.mem_uc main_v9 (by decide))).trans (final_v9 m c),
     (h c _ (Whole.mem_uc main_arg0 (by decide))).trans (Whole.end_arg0 m c),
     (h c _ (Whole.mem_uc main_arg1 (by decide))).trans (Whole.end_arg1 m c),
     (h c _ (Whole.mem_uc main_arg2 (by decide))).trans (Whole.end_arg2 m c),
     (h c _ (Whole.mem_uc main_arg3 (by decide))).trans (Whole.end_arg3 m c),
     (h c _ (Whole.mem_uc main_arg4 (by decide))).trans (Whole.end_arg4 m c),
     (h c _ (Whole.mem_uc main_arg5 (by decide))).trans (Whole.end_arg5 m c)⟩) (Whole.run_all m ρ)

end Cert.QLin.Final

end
-- ==== Proof.RefSpec.lean ====
/-
  The reference program computes the layer's result.  Its sixteen operations are read at an index `(b, s, n)`:
  the two broadcast–reshape–transpose chains turn the `[32, 4096]` scale and zero arrays into `[4096 (n), 4096 (k)]`
  arrays whose `(n, k)` element is the scale (zero) of group `k / 128` at `n`; the converted integer weight times
  that scale plus that zero is the dequantised weight; the first contraction is the dense product over all 4096 input
  features, the second the product of the last 128 input features with the outlier weight; the bias is broadcast
  along `(b, s)`.  Their sum, in the order the program adds them, is `result`.
-/
import proofs.«144596_j15461882266230_2_alg».proof.Proof.Spec
import proofs.«144596_j15461882266230_2_alg».proof.Proof.Gen.ReferenceIdeal.Read

noncomputable section

namespace Cert.QLin.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.QLin

/-- The broadcast, reshaped and transposed scale array at `(n, k)` is the scale of group `k / 128` at `n`:
    `(4096 k + n) / (128 · 4096) = k / 128` and `(4096 k + n) % 4096 = n`. -/
theorem scale_read (Sc : SG.Idx → EReal) (n k : Fin 4096) :
    val_main_v2 (F := Ideal) Sc (ix2 n k) = Sc (ix2 (grp k) n) := by
  rw [val_main_v2_apply, val_main_v1_apply, val_main_v0_apply]
  refine congrArg Sc (funext fun a => Fin.ext ?_)
  have hn := n.isLt
  match a with
  | ⟨0, _⟩ => show (k.val * 4096 + n.val) / 524288 = k.val / 128; omega
  | ⟨1, _⟩ => show (k.val * 4096 + n.val) % 4096 = n.val; omega

/-- The same reading of the zero array. -/
theorem zero_read (Z : SG.Idx → EReal) (n k : Fin 4096) :
    val_main_v5 (F := Ideal) Z (ix2 n k) = Z (ix2 (grp k) n) := by
  rw [val_main_v5_apply, val_main_v4_apply, val_main_v3_apply]
  refine congrArg Z (funext fun a => Fin.ext ?_)
  have hn := n.isLt
  match a with
  | ⟨0, _⟩ => show (k.val * 4096 + n.val) / 524288 = k.val / 128; omega
  | ⟨1, _⟩ => show (k.val * 4096 + n.val) % 4096 = n.val; omega

/-- The weight the reference multiplies by, at `(n, k)`, is the dequantised weight `W[k, n]`. -/
theorem weight_read (Q : SQ.Idx → BitVec 32) (Sc Z : SG.Idx → EReal) (n k : Fin 4096) :
    val_main_v8 (F := Ideal) Q Sc Z (ix2 n k) = wd Q Sc Z k n := by
  rw [val_main_v8_apply, val_main_v7_apply, val_main_v6_apply, scale_read, zero_read]
  rfl

/-- The first contraction at `(b, s, n)` is the dense product with the dequantised weight. -/
theorem dense_read (X : SX.Idx → EReal) (Q : SQ.Idx → BitVec 32) (Sc Z : SG.Idx → EReal)
    (b : Fin 4) (s : Fin 2048) (n : Fin 4096) :
    val_main_v9 (F := Ideal) X Q Sc Z (ix3 b s n) = ∑ k : Fin 4096, X (ix3 b s k) * wd Q Sc Z k n := by
  rw [val_main_v9_apply]
  refine Finset.sum_congr rfl fun k _ => ?_
  have hl : lidx_main_v9 (ix3 b s n) k = ix3 b s k := funext fun a => Fin.ext (by
    match a with
    | ⟨0, _⟩ => rfl
    | ⟨1, _⟩ => rfl
    | ⟨2, _⟩ => rfl)
  have hr : ridx_main_v9 (ix3 b s n) k = ix2 n k := funext fun a => Fin.ext (by
    match a with
    | ⟨0, _⟩ => rfl
    | ⟨1, _⟩ => rfl)
  rw [hl, hr, weight_read]

/-- The second contraction at `(b, s, n)` is the product of the last 128 input features with the outlier weight. -/
theorem outlier_read (X : SX.Idx → EReal) (OW : SO.Idx → EReal) (b : Fin 4) (s : Fin 2048) (n : Fin 4096) :
    val_main_v11 (F := Ideal) X OW (ix3 b s n) = ∑ o : Fin 128, X (ix3 b s (tailK o)) * OW (ix2 n o) := by
  rw [val_main_v11_apply]
  refine Finset.sum_congr rfl fun o _ => ?_
  rw [val_main_v10_apply]
  have hl : idx_main_v10 (lidx_main_v11 (ix3 b s n) o) = ix3 b s (tailK o) := funext fun a => Fin.ext (by
    match a with
    | ⟨0, _⟩ => rfl
    | ⟨1, _⟩ => rfl
    | ⟨2, _⟩ => rfl)
  have hr : ridx_main_v11 (ix3 b s n) o = ix2 n o := funext fun a => Fin.ext (by
    match a with
    | ⟨0, _⟩ => rfl
    | ⟨1, _⟩ => rfl)
  rw [hl, hr]

/-- The broadcast bias at `(b, s, n)` is the bias at `n`. -/
theorem bias_read (B : SB.Idx → EReal) (b : Fin 4) (s : Fin 2048) (n : Fin 4096) :
    val_main_v14 (F := Ideal) B (ix3 b s n) = B (ix1 n) := by
  rw [val_main_v14_apply, val_main_v13_apply]
  refine congrArg B (funext fun a => Fin.ext ?_)
  match a with
  | ⟨0, _⟩ => rfl

/-- The reference's last stage is the layer's result. -/
theorem val_eq_result (X : SX.Idx → EReal) (Q : SQ.Idx → BitVec 32) (Sc Z : SG.Idx → EReal) (OW : SO.Idx → EReal)
    (B : SB.Idx → EReal) :
    val_main_v15 (F := Ideal) X Q Sc Z OW B = result X Q Sc Z OW B := by
  funext i
  obtain ⟨b, s, n, rfl⟩ : ∃ (b : Fin 4) (s : Fin 2048) (n : Fin 4096), i = ix3 b s n := ⟨i 0, i 1, i 2, eq_ix3 i⟩
  rw [val_main_v15_apply, val_main_v12_apply, dense_read, outlier_read, bias_read]
  rfl

/-- Every weakly fair execution of the reference program terminates with its result buffer holding the layer's
    result of the argument buffers, the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev nD,
      r.2.mem ((c.tc : Thread nD τ).loc main_v15)
        = Cert.QLin.result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (Cert.ReferenceIdeal.defs (F := Ideal)) _ _).mono
    (fun _ h c => ⟨(h c).1.trans ((val_main_v15_eq (F := Ideal) _ _ _ _ _ _).trans (val_eq_result _ _ _ _ _ _)), (h c).2⟩)
    (Cert.ReferenceIdeal.Value.run (F := Ideal) m ρ)

end Cert.QLin.Ref

end
-- ==== Proof.lean ====
/-
  A quantised linear layer: the weight is kept as 4-bit integers with one scale and one pre-scaled zero per group of
  128 input features, `W[k, n] = Q[n, k] · scale[k / 128, n] + zero[k / 128, n]`, and the layer computes
  `y = x · W + x[…, 3968:] · OWᵀ + bias` for activations `x : [4, 2048, 4096]`.

  The kernel program first dequantises the whole weight once (a pipeline of 4 × 4 blocks), then multiplies: a pipeline of
  8 × 4 × 4 points that keeps a 1024 × 1024 accumulator across the four points of a group — started at outlier product
  + bias, one block of 1024 input features added per point, copied out at the last.  The reference program forms the
  dequantised weight, the dense product over all 4096 input features, the outlier product, and adds the bias.
  Over the extended reals, where every float operation is the exact one and a change of format is the identity, both are
  the same sum arranged differently, and addition there is commutative and associative: the results agree (no use is
  made of the inputs being finite).  Each program also runs to the end, faults nowhere, and leaves its arguments as it
  found them: for the kernel program — at the word-level instance and at the exact one alike — because each region's
  body meets the pipeline's obligation at every grid point and no host operation or write-back touches an argument;
  for the reference because it is a straight line of host operations.
-/
import proofs.«144596_j15461882266230_2_alg».proof.Defs
import proofs.«144596_j15461882266230_2_alg».proof.Proof.Gen.Kernel
import proofs.«144596_j15461882266230_2_alg».proof.Proof.Gen.KernelIdeal
import proofs.«144596_j15461882266230_2_alg».proof.Proof.Gen.ReferenceIdeal
import proofs.«144596_j15461882266230_2_alg».proof.Proof.Gen.ReferenceIdeal.Run
import proofs.«144596_j15461882266230_2_alg».proof.Proof.Gen.ReferenceIdeal.Read
import proofs.«144596_j15461882266230_2_alg».proof.Proof.Gen.Pre_finite_inputs
import proofs.«144596_j15461882266230_2_alg».proof.Proof.WordWholeRun
import proofs.«144596_j15461882266230_2_alg».proof.Proof.KernelValue
import proofs.«144596_j15461882266230_2_alg».proof.Proof.RefSpec
import Idealize.ShloMosaic.Adequacy
import Idealize.ShloMosaic.Init

noncomputable section

namespace Cert.Proof

open Idealize.ShloMosaic Idealize.ShloMosaic.TcCoe Idealize.SL.Sem

/-- The kernel program as printed (words) runs and keeps its arguments. -/
theorem frame_word : Cert.frame_Kernel := fun m ρ _ => Cert.Kernel.Whole.frame m ρ

/-- The kernel program read over the extended reals runs and keeps its arguments. -/
theorem frame_exact : Cert.frame_KernelIdeal := fun m ρ _ => Cert.KernelIdeal.Whole.frame m ρ

/-- The reference runs and keeps its arguments: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Over the extended reals the two programs, run from memories that agree on the arguments, end with the same result:
    both end at the layer's result of the arguments. -/
theorem algebraic : Cert.algebraic_KernelIdeal_ReferenceIdeal := by
  intro m ρ m' ρ' _ hagree
  refine ⟨fun c => Cert.QLin.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.QLin.Final.kernel_run m ρ, ?_⟩
  refine (θ_run Cert.ReferenceIdeal.defs _ _).mono (fun _ h c => ⟨(h c).1.trans ?_, (h c).2⟩) (Cert.QLin.Ref.ref_run m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_word, frame_exact, frame_ref, trivial, algebraic⟩

end Cert.Proof

end
